-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x17x512 : Shape := ⟨4, ![32, 256, 17, 512]⟩
abbrev S17x17 : Shape := ⟨2, ![17, 17]⟩
abbrev S512x512 : Shape := ⟨2, ![512, 512]⟩
abbrev S512 : Shape := ⟨1, ![512]⟩
abbrev S_ : Shape := ⟨0, ![]⟩

class Facts : Prop where
  bcast_S_S32x256x17x512 : S_.BroadcastsInDim S32x256x17x512 (![] : Fin 0 → Fin S32x256x17x512.rank)
  reducesTo_S32x256x17x512_S_d0_1_2_3 : S32x256x17x512.ReducesTo [0, 1, 2, 3] S_
  h_S_ : 0 < S_.numel
  bcast_S_S17x17 : S_.BroadcastsInDim S17x17 (![] : Fin 0 → Fin S17x17.rank)
  reducesTo_S17x17_S_d0_1 : S17x17.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512x512 .f32) (main_arg5 : FVec F S512x512 .f32) (main_arg6 : FVec F S512 .f32) (main_arg7 : FVec F S512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32x256x17x512 .f32) (main_arg1 : FVec F S17x17 .f32) (main_arg2 : FVec F S512x512 .f32) (main_arg3 : FVec F S512x512 .f32) (main_arg4 : FVec F S512x512 .f32) (main_arg5 : FVec F S512x512 .f32) (main_arg6 : FVec F S512 .f32) (main_arg7 : FVec F S512 .f32) (main_arg8 : FVec F S512 .f32) : IVec S_ 1 :=
  let main_v0 : FVec F S32x256x17x512 .f32 := Host.absf main_arg0
  let main_cst : FVec F S_ .f32 := constant S_ .f32 0x7F800000#32
  let main_v1 : FVec F S32x256x17x512 .f32 := broadcastInDim S32x256x17x512 ![] bcast_S_S32x256x17x512 main_cst
  let main_v2 : IVec S32x256x17x512 1 := cmpf .olt main_v0 main_v1
  let main_c : IVec S_ 1 := constantI S_ 1 1#1
  let main_v3 : IVec S_ 1 := (fun x v => Host.reduce IntOp.andi x v reducesTo_S32x256x17x512_S_d0_1_2_3 h_S_) main_v2 main_c
  let main_v4 : FVec F S17x17 .f32 := Host.absf main_arg1
  let main_cst_0 : FVec F S_ .f32 := constant S_ .f32 0x7F800000#32
  let main_v5 : FVec F S17x17 .f32 := broadcastInDim S17x17 ![] bcast_S_S17x17 main_cst_0
  let main_v6 : IVec S17x17 1 := cmpf .olt main_v4 main_v5
  let main_c_1 : IVec S_ 1 := constantI S_ 1 1#1
  let main_v7 : IVec S_ 1 := (fun x v => Host.reduce IntOp.andi x v reducesTo_S17x17_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S32x256x17x512 : Shape := ⟨4, ![32, 256, 17, 512]⟩
abbrev S17x17 : Shape := ⟨2, ![17, 17]⟩
abbrev S512x512 : Shape := ⟨2, ![512, 512]⟩
abbrev S512 : Shape := ⟨1, ![512]⟩
abbrev S139264x512 : Shape := ⟨2, ![139264, 512]⟩
abbrev S1x512 : Shape := ⟨2, ![1, 512]⟩
abbrev S1088x512 : Shape := ⟨2, ![1088, 512]⟩
abbrev S1088x64 : Shape := ⟨2, ![1088, 64]⟩
abbrev S64x17x64 : Shape := ⟨3, ![64, 17, 64]⟩
abbrev S64x17x17 : Shape := ⟨3, ![64, 17, 17]⟩
abbrev S1x17x17 : Shape := ⟨3, ![1, 17, 17]⟩
abbrev S64x17 : Shape := ⟨2, ![64, 17]⟩
abbrev S64x17x1 : Shape := ⟨3, ![64, 17, 1]⟩
abbrev S1088 : Shape := ⟨1, ![1088]⟩
abbrev S1088x1 : Shape := ⟨2, ![1088, 1]⟩

abbrev nBuf : Space → Nat
  | .hbm => 23
  | .vmem => 12
  | .smem => 0
  | _ => 0

abbrev bufTy : (tb : Table) → Fin (tcTables nBuf tb) → BufTy
  | .hbm, ⟨0, _⟩ => ⟨S32x256x17x512, .f32⟩
  | .hbm, ⟨1, _⟩ => ⟨S17x17, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S139264x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S512x512, .f32⟩
  | .hbm, ⟨14, _⟩ => ⟨S512x512, .bf16⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S139264x512, .f32⟩
  | .hbm, ⟨22, _⟩ => ⟨S32x256x17x512, .f32⟩
  | .local _ .vmem, ⟨0, _⟩ => ⟨S1088x512, .f32⟩
  | .local _ .vmem, ⟨1, _⟩ => ⟨S1088x512, .f32⟩
  | .local _ .vmem, ⟨2, _⟩ => ⟨S17x17, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1088x512, .f32⟩
  | .local _ .vmem, ⟨11, _⟩ => ⟨S1088x512, .f32⟩
  | _, _ => ⟨S32x256x17x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1088x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x256x17x512_S139264x512 : S32x256x17x512.ShapeCasts S139264x512
  shapeCasts_S512_S1x512 : S512.ShapeCasts S1x512
  transposes_S512x512_S512x512_1_0 : S512x512.Transposes [1, 0] S512x512
  bitsLt_bf16_f32 : FTy.bits .bf16 < FTy.bits .f32
  inb_S1088x512_S1088x512_0_0 : ∀ a, (![0, 0] : Fin 2 → Nat) a + S1088x512.size a ≤ S1088x512.size a
  h_S1088x512 : 0 < S1088x512.numel
  shapeCasts_S1088x512_S1088x512 : S1088x512.ShapeCasts S1088x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S17x17_S17x17_0_0 : ∀ a, (![0, 0] : Fin 2 → Nat) a + S17x17.size a ≤ S17x17.size a
  h_S17x17 : 0 < S17x17.numel
  slices_S1088x512_o0_0_S1088x64 : S1088x512.Slices ![0, 0] S1088x64
  shapeCasts_S1088x64_S64x17x64 : S1088x64.ShapeCasts S64x17x64
  shapeCasts_S17x17_S1x17x17 : S17x17.ShapeCasts S1x17x17
  broadcasts_S1x17x17_S64x17x17 : S1x17x17.Broadcasts S64x17x17
  reduces_S64x17x17_S64x17 : S64x17x17.Reduces [2] S64x17
  shapeCasts_S64x17_S64x17x1 : S64x17.ShapeCasts S64x17x1
  broadcasts_S64x17x1_S64x17x17 : S64x17x1.Broadcasts S64x17x17
  shapeCasts_S64x17x64_S1088x64 : S64x17x64.ShapeCasts S1088x64
  slices_S1088x512_o0_64_S1088x64 : S1088x512.Slices ![0, 64] S1088x64
  slices_S1088x512_o0_128_S1088x64 : S1088x512.Slices ![0, 128] S1088x64
  slices_S1088x512_o0_192_S1088x64 : S1088x512.Slices ![0, 192] S1088x64
  slices_S1088x512_o0_256_S1088x64 : S1088x512.Slices ![0, 256] S1088x64
  slices_S1088x512_o0_320_S1088x64 : S1088x512.Slices ![0, 320] S1088x64
  slices_S1088x512_o0_384_S1088x64 : S1088x512.Slices ![0, 384] S1088x64
  slices_S1088x512_o0_448_S1088x64 : S1088x512.Slices ![0, 448] S1088x64
  concatenates_S1088x64_S1088x64_S1088x64_S1088x64_S1088x64_S1088x64_S1088x64_S1088x64_S1088x512_d1 : Shape.Concatenates [S1088x64, S1088x64, S1088x64, S1088x64, S1088x64, S1088x64, S1088x64, S1088x64] S1088x512 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1088x512 : S1x512.Broadcasts S1088x512
  reduces_S1088x512_S1088 : S1088x512.Reduces [1] S1088
  shapeCasts_S1088_S1088x1 : S1088.ShapeCasts S1088x1
  broadcasts_S1088x1_S1088x512 : S1088x1.Broadcasts S1088x512
  shapeCasts_S139264x512_S32x256x17x512 : S139264x512.ShapeCasts S32x256x17x512
  dot_S1088x512_S512x512_S1088x512_1_0_0_1_n_n_wf : DotDims.WF S1088x512 S512x512 S1088x512 [1] [0] [0] [1] [] []
  dot_S64x17x64_S64x17x64_S64x17x17_2_2_1_1_0_0_wf : DotDims.WF S64x17x64 S64x17x64 S64x17x17 [2] [2] [1] [1] [0] [0]
  dot_S64x17x17_S64x17x64_S64x17x64_2_1_1_2_0_0_wf : DotDims.WF S64x17x17 S64x17x64 S64x17x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1088x512.size a ≤ S139264x512.size a
  hwx0_0 : ∀ i : grid0.Coords, EltTy.bits .f32 = 32 ∨ (Rect.block (s := S139264x512) S1088x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x17.size a ≤ S17x17.size a
  hwx0_1 : ∀ i : grid0.Coords, EltTy.bits .f32 = 32 ∨ (Rect.block (s := S17x17) S17x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1088x512.size a ≤ S139264x512.size a
  hwx0_9 : ∀ i : grid0.Coords, EltTy.bits .f32 = 32 ∨ (Rect.block (s := S139264x512) S1088x512.size (cc0_transform_9 i) (hinb0_9 i)).WholeWords (EltTy.packing .f32)

variable [Facts₀]

def dot_S1088x512_S512x512_S1088x512_1_0_0_1_n_n : DotDims S1088x512 S512x512 S1088x512 where
  lhsContracting := [1]
  rhsContracting := [0]
  lhsNonContracting := [0]
  rhsNonContracting := [1]
  lhsBatch := []
  rhsBatch := []
  wf := dot_S1088x512_S512x512_S1088x512_1_0_0_1_n_n_wf
def dot_S64x17x64_S64x17x64_S64x17x17_2_2_1_1_0_0 : DotDims S64x17x64 S64x17x64 S64x17x17 where
  lhsContracting := [2]
  rhsContracting := [2]
  lhsNonContracting := [1]
  rhsNonContracting := [1]
  lhsBatch := [0]
  rhsBatch := [0]
  wf := dot_S64x17x64_S64x17x64_S64x17x17_2_2_1_1_0_0_wf
def dot_S64x17x17_S64x17x64_S64x17x64_2_1_1_2_0_0 : DotDims S64x17x17 S64x17x64 S64x17x64 where
  lhsContracting := [2]
  rhsContracting := [1]
  lhsNonContracting := [1]
  rhsNonContracting := [2]
  lhsBatch := [0]
  rhsBatch := [0]
  wf := dot_S64x17x17_S64x17x64_S64x17x64_2_1_1_2_0_0_wf

abbrev win0_0 : Pipeline.Window sig grid0 :=
  Pipeline.Window.ofSpec (Memref.whole main_v0) S1088x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S17x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1088x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x256x17x512 : Shape := ⟨4, ![32, 256, 17, 512]⟩
abbrev S17x17 : Shape := ⟨2, ![17, 17]⟩
abbrev S512x512 : Shape := ⟨2, ![512, 512]⟩
abbrev S512 : Shape := ⟨1, ![512]⟩
abbrev S_ : Shape := ⟨0, ![]⟩
abbrev S8192x17x512 : Shape := ⟨3, ![8192, 17, 512]⟩
abbrev S8192x17x8x64 : Shape := ⟨4, ![8192, 17, 8, 64]⟩
abbrev S8192x8x17x64 : Shape := ⟨4, ![8192, 8, 17, 64]⟩
abbrev S8192x8x17x17 : Shape := ⟨4, ![8192, 8, 17, 17]⟩
abbrev S1x1x17x17 : Shape := ⟨4, ![1, 1, 17, 17]⟩
abbrev S8192x8x17 : Shape := ⟨3, ![8192, 8, 17]⟩
abbrev S8192x8x17x1 : Shape := ⟨4, ![8192, 8, 17, 1]⟩
abbrev S1x1x512 : Shape := ⟨3, ![1, 1, 512]⟩
abbrev S32x256x17 : Shape := ⟨3, ![32, 256, 17]⟩
abbrev S32x256x17x1 : Shape := ⟨4, ![32, 256, 17, 1]⟩
abbrev S1x1x1x512 : Shape := ⟨4, ![1, 1, 1, 512]⟩

abbrev nBuf : Space → Nat
  | .hbm => 81
  | .vmem => 0
  | .smem => 0
  | _ => 0

abbrev bufTy : (tb : Table) → Fin (tcTables nBuf tb) → BufTy
  | .hbm, ⟨0, _⟩ => ⟨S32x256x17x512, .f32⟩
  | .hbm, ⟨1, _⟩ => ⟨S17x17, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x17x512, .f32⟩
  | .hbm, ⟨14, _⟩ => ⟨S8192x17x512, .f32⟩
  | .hbm, ⟨15, _⟩ => ⟨S8192x17x8x64, .f32⟩
  | .hbm, ⟨16, _⟩ => ⟨S8192x8x17x64, .f32⟩
  | .hbm, ⟨17, _⟩ => ⟨S8192x17x512, .f32⟩
  | .hbm, ⟨18, _⟩ => ⟨S8192x17x8x64, .f32⟩
  | .hbm, ⟨19, _⟩ => ⟨S8192x8x17x64, .f32⟩
  | .hbm, ⟨20, _⟩ => ⟨S8192x17x512, .f32⟩
  | .hbm, ⟨21, _⟩ => ⟨S8192x17x8x64, .f32⟩
  | .hbm, ⟨22, _⟩ => ⟨S8192x8x17x64, .f32⟩
  | .hbm, ⟨23, _⟩ => ⟨S8192x8x17x17, .f32⟩
  | .hbm, ⟨24, _⟩ => ⟨S8192x8x17x17, .f32⟩
  | .hbm, ⟨25, _⟩ => ⟨S8192x8x17x17, .f32⟩
  | .hbm, ⟨26, _⟩ => ⟨S1x1x17x17, .f32⟩
  | .hbm, ⟨27, _⟩ => ⟨S8192x8x17x17, .f32⟩
  | .hbm, ⟨28, _⟩ => ⟨S8192x8x17x17, .f32⟩
  | .hbm, ⟨29, _⟩ => ⟨S_, .f32⟩
  | .hbm, ⟨30, _⟩ => ⟨S8192x8x17, .f32⟩
  | .hbm, ⟨31, _⟩ => ⟨S_, .f32⟩
  | .hbm, ⟨32, _⟩ => ⟨S8192x8x17, .f32⟩
  | .hbm, ⟨33, _⟩ => ⟨S8192x8x17, .f32⟩
  | .hbm, ⟨34, _⟩ => ⟨S8192x8x17x1, .f32⟩
  | .hbm, ⟨35, _⟩ => ⟨S8192x8x17x17, .f32⟩
  | .hbm, ⟨36, _⟩ => ⟨S8192x8x17x17, .f32⟩
  | .hbm, ⟨37, _⟩ => ⟨S8192x8x17x17, .f32⟩
  | .hbm, ⟨38, _⟩ => ⟨S_, .f32⟩
  | .hbm, ⟨39, _⟩ => ⟨S8192x8x17, .f32⟩
  | .hbm, ⟨40, _⟩ => ⟨S8192x8x17x1, .f32⟩
  | .hbm, ⟨41, _⟩ => ⟨S8192x8x17x17, .f32⟩
  | .hbm, ⟨42, _⟩ => ⟨S8192x8x17x17, .f32⟩
  | .hbm, ⟨43, _⟩ => ⟨S8192x8x17x64, .f32⟩
  | .hbm, ⟨44, _⟩ => ⟨S8192x17x8x64, .f32⟩
  | .hbm, ⟨45, _⟩ => ⟨S8192x17x512, .f32⟩
  | .hbm, ⟨46, _⟩ => ⟨S8192x17x512, .f32⟩
  | .hbm, ⟨47, _⟩ => ⟨S1x1x512, .f32⟩
  | .hbm, ⟨48, _⟩ => ⟨S8192x17x512, .f32⟩
  | .hbm, ⟨49, _⟩ => ⟨S8192x17x512, .f32⟩
  | .hbm, ⟨50, _⟩ => ⟨S32x256x17x512, .f32⟩
  | .hbm, ⟨51, _⟩ => ⟨S32x256x17x512, .f32⟩
  | .hbm, ⟨52, _⟩ => ⟨S_, .f32⟩
  | .hbm, ⟨53, _⟩ => ⟨S32x256x17, .f32⟩
  | .hbm, ⟨54, _⟩ => ⟨S32x256x17x1, .f32⟩
  | .hbm, ⟨55, _⟩ => ⟨S_, .f32⟩
  | .hbm, ⟨56, _⟩ => ⟨S32x256x17x1, .f32⟩
  | .hbm, ⟨57, _⟩ => ⟨S32x256x17x1, .f32⟩
  | .hbm, ⟨58, _⟩ => ⟨S32x256x17x512, .f32⟩
  | .hbm, ⟨59, _⟩ => ⟨S32x256x17x512, .f32⟩
  | .hbm, ⟨60, _⟩ => ⟨S32x256x17x512, .f32⟩
  | .hbm, ⟨61, _⟩ => ⟨S_, .f32⟩
  | .hbm, ⟨62, _⟩ => ⟨S32x256x17, .f32⟩
  | .hbm, ⟨63, _⟩ => ⟨S32x256x17x1, .f32⟩
  | .hbm, ⟨64, _⟩ => ⟨S_, .f32⟩
  | .hbm, ⟨65, _⟩ => ⟨S32x256x17x1, .f32⟩
  | .hbm, ⟨66, _⟩ => ⟨S32x256x17x1, .f32⟩
  | .hbm, ⟨67, _⟩ => ⟨S32x256x17x512, .f32⟩
  | .hbm, ⟨68, _⟩ => ⟨S32x256x17x512, .f32⟩
  | .hbm, ⟨69, _⟩ => ⟨S_, .f32⟩
  | .hbm, ⟨70, _⟩ => ⟨S32x256x17x1, .f32⟩
  | .hbm, ⟨71, _⟩ => ⟨S32x256x17x1, .f32⟩
  | .hbm, ⟨72, _⟩ => ⟨S32x256x17x1, .f32⟩
  | .hbm, ⟨73, _⟩ => ⟨S32x256x17x512, .f32⟩
  | .hbm, ⟨74, _⟩ => ⟨S32x256x17x512, .f32⟩
  | .hbm, ⟨75, _⟩ => ⟨S1x1x1x512, .f32⟩
  | .hbm, ⟨76, _⟩ => ⟨S32x256x17x512, .f32⟩
  | .hbm, ⟨77, _⟩ => ⟨S32x256x17x512, .f32⟩
  | .hbm, ⟨78, _⟩ => ⟨S1x1x1x512, .f32⟩
  | .hbm, ⟨79, _⟩ => ⟨S32x256x17x512, .f32⟩
  | .hbm, ⟨80, _⟩ => ⟨S32x256x17x512, .f32⟩
  | _, _ => ⟨S32x256x17x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  shapeCasts_S32x256x17x512_S8192x17x512 : S32x256x17x512.ShapeCasts S8192x17x512
  shapeCasts_S8192x17x512_S8192x17x8x64 : S8192x17x512.ShapeCasts S8192x17x8x64
  transposes_S8192x17x8x64_S8192x8x17x64_0_2_1_3 : S8192x17x8x64.Transposes [0, 2, 1, 3] S8192x8x17x64
  bcast_S_S8192x8x17x17 : S_.BroadcastsInDim S8192x8x17x17 (![] : Fin 0 → Fin S8192x8x17x17.rank)
  bcast_S17x17_S1x1x17x17_2_3 : S17x17.BroadcastsInDim S1x1x17x17 (![2, 3] : Fin 2 → Fin S1x1x17x17.rank)
  bcast_S1x1x17x17_S8192x8x17x17_0_1_2_3 : S1x1x17x17.BroadcastsInDim S8192x8x17x17 (![0, 1, 2, 3] : Fin 4 → Fin S8192x8x17x17.rank)
  reducesTo_S8192x8x17x17_S8192x8x17_d3 : S8192x8x17x17.ReducesTo [3] S8192x8x17
  h_S_ : 0 < S_.numel
  bcast_S_S8192x8x17 : S_.BroadcastsInDim S8192x8x17 (![] : Fin 0 → Fin S8192x8x17.rank)
  bcast_S8192x8x17_S8192x8x17x1_0_1_2 : S8192x8x17.BroadcastsInDim S8192x8x17x1 (![0, 1, 2] : Fin 3 → Fin S8192x8x17x1.rank)
  bcast_S8192x8x17x1_S8192x8x17x17_0_1_2_3 : S8192x8x17x1.BroadcastsInDim S8192x8x17x17 (![0, 1, 2, 3] : Fin 4 → Fin S8192x8x17x17.rank)
  transposes_S8192x8x17x64_S8192x17x8x64_0_2_1_3 : S8192x8x17x64.Transposes [0, 2, 1, 3] S8192x17x8x64
  shapeCasts_S8192x17x8x64_S8192x17x512 : S8192x17x8x64.ShapeCasts S8192x17x512
  bcast_S512_S1x1x512_2 : S512.BroadcastsInDim S1x1x512 (![2] : Fin 1 → Fin S1x1x512.rank)
  bcast_S1x1x512_S8192x17x512_0_1_2 : S1x1x512.BroadcastsInDim S8192x17x512 (![0, 1, 2] : Fin 3 → Fin S8192x17x512.rank)
  shapeCasts_S8192x17x512_S32x256x17x512 : S8192x17x512.ShapeCasts S32x256x17x512
  reducesTo_S32x256x17x512_S32x256x17_d3 : S32x256x17x512.ReducesTo [3] S32x256x17
  bcast_S32x256x17_S32x256x17x1_0_1_2 : S32x256x17.BroadcastsInDim S32x256x17x1 (![0, 1, 2] : Fin 3 → Fin S32x256x17x1.rank)
  bcast_S_S32x256x17x1 : S_.BroadcastsInDim S32x256x17x1 (![] : Fin 0 → Fin S32x256x17x1.rank)
  bcast_S32x256x17x1_S32x256x17x512_0_1_2_3 : S32x256x17x1.BroadcastsInDim S32x256x17x512 (![0, 1, 2, 3] : Fin 4 → Fin S32x256x17x512.rank)
  bcast_S512_S1x1x1x512_3 : S512.BroadcastsInDim S1x1x1x512 (![3] : Fin 1 → Fin S1x1x1x512.rank)
  bcast_S1x1x1x512_S32x256x17x512_0_1_2_3 : S1x1x1x512.BroadcastsInDim S32x256x17x512 (![0, 1, 2, 3] : Fin 4 → Fin S32x256x17x512.rank)
  dot_S8192x17x512_S512x512_S8192x17x512_2_1_01_0_n_n_wf : DotDims.WF S8192x17x512 S512x512 S8192x17x512 [2] [1] [0, 1] [0] [] []
  dot_S8192x8x17x64_S8192x8x17x64_S8192x8x17x17_3_3_2_2_01_01_wf : DotDims.WF S8192x8x17x64 S8192x8x17x64 S8192x8x17x17 [3] [3] [2] [2] [0, 1] [0, 1]
  dot_S8192x8x17x17_S8192x8x17x64_S8192x8x17x64_3_2_2_3_01_01_wf : DotDims.WF S8192x8x17x17 S8192x8x17x64 S8192x8x17x64 [3] [2] [2] [3] [0, 1] [0, 1]

variable [Facts₀]

def dot_S8192x17x512_S512x512_S8192x17x512_2_1_01_0_n_n : DotDims S8192x17x512 S512x512 S8192x17x512 where
  lhsContracting := [2]
  rhsContracting := [1]
  lhsNonContracting := [0, 1]
  rhsNonContracting := [0]
  lhsBatch := []
  rhsBatch := []
  wf := dot_S8192x17x512_S512x512_S8192x17x512_2_1_01_0_n_n_wf
def dot_S8192x8x17x64_S8192x8x17x64_S8192x8x17x17_3_3_2_2_01_01 : DotDims S8192x8x17x64 S8192x8x17x64 S8192x8x17x17 where
  lhsContracting := [3]
  rhsContracting := [3]
  lhsNonContracting := [2]
  rhsNonContracting := [2]
  lhsBatch := [0, 1]
  rhsBatch := [0, 1]
  wf := dot_S8192x8x17x64_S8192x8x17x64_S8192x8x17x17_3_3_2_2_01_01_wf
def dot_S8192x8x17x17_S8192x8x17x64_S8192x8x17x64_3_2_2_3_01_01 : DotDims S8192x8x17x17 S8192x8x17x64 S8192x8x17x64 where
  lhsContracting := [3]
  rhsContracting := [2]
  lhsNonContracting := [2]
  rhsNonContracting := [3]
  lhsBatch := [0, 1]
  rhsBatch := [0, 1]
  wf := dot_S8192x8x17x17_S8192x8x17x64_S8192x8x17x64_3_2_2_3_01_01_wf

class Facts : Prop extends Facts₀ where

variable [Facts]
-- ==== Proof.Stages.lean ====
/-
  The kernel body's arithmetic, regrouped by what it computes. One grid point works on 1088 = 64 · 17 rows of the
  flattened input (64 positions, 17 graph nodes each) and all 512 channels:
    * `proj`   — a dense projection of the rows by a 512 × 512 weight (already transposed);
    * `scores` — for one head (a 64-column band at column offset `off 1`), the 17 × 17 table of query·key products per
                 position, scaled by 1/8, plus the additive bias table;
    * `attend` — the row-wise softmax of such a table (maximum subtracted first) applied to the head's value band;
    * `finish` — the eight heads' contexts side by side, the output projection, its bias, the residual, and the
                 normalisation of each row to mean 0 and variance 1 (with the small constant added to the variance),
                 scaled and shifted channel by channel.
  The body's stored block is `blockOut`, their composition; `out_eq` says so, by unfolding.
-/
import proofs.«181274_j71270687309843_2_alg».proof.Proof.Gen.KernelIdeal.Frame

set_option maxRecDepth 16384

noncomputable section

namespace Cert.KernelIdeal.Stages

open Idealize.ShloMosaic Idealize.SL.Sem Cert.KernelIdeal Cert.KernelIdeal.Gen

variable {F : FTy → Type} [FloatOps F]

/-- Rows times a (pre-transposed) weight: entry (r, c) is the sum over m of x(r, m) · w(m, c). -/
def proj (x : FVec F S1088x512 .f32) (w : Vec F S512x512 .bf16) : FVec F S1088x512 .f32 :=
  matmul dot_S1088x512_S512x512_S1088x512_1_0_0_1_n_n none (truncf .bf16 x bitsLt_bf16_f32)
    (shapeCast S512x512 w shapeCasts_S512x512_S512x512) (constant S1088x512 .f32 0x00000000#32)

/-- The 64-column band of a projection at column offset `off 1`, rows regrouped as (position, node). -/
def band (off : Fin 2 → Nat) (hs : S1088x512.Slices off S1088x64) (y : FVec F S1088x512 .f32) : FVec F S64x17x64 .f32 :=
  shapeCast S64x17x64 (extractStridedSlice S1088x64 off y hs) shapeCasts_S1088x64_S64x17x64

/-- One head's score table: (position b, node d, node e) ↦ (Σ_k q(b,d,k) · k(b,e,k)) · 1/8 + P(d, e). -/
def scores (qb kb : FVec F S64x17x64 .f32) (p : Vec F S17x17 .f32) : FVec F S64x17x17 .f32 :=
  addf (mulf (matmul dot_S64x17x64_S64x17x64_S64x17x17_2_2_1_1_0_0 none qb kb (constant S64x17x17 .f32 0x00000000#32))
      (broadcast S64x17x17 (Scalar.ofBits .f32 0x3E000000#32)))
    (broadcastTo S64x17x17 (shapeCast S1x17x17 p shapeCasts_S17x17_S1x17x17) broadcasts_S1x17x17_S64x17x17)

/-- A score table's row maxima, kept as a trailing unit axis. -/
def rowMax (s : FVec F S64x17x17 .f32) : FVec F S64x17x1 .f32 :=
  shapeCast S64x17x1 (multiReduction .maximumf [2] S64x17 s 0xFF800000#32 reduces_S64x17x17_S64x17 (.inl rfl) rfl) shapeCasts_S64x17_S64x17x1

/-- The exponentials of a score table after its row maxima are subtracted. -/
def expd (s : FVec F S64x17x17 .f32) (mx : FVec F S64x17x1 .f32) : FVec F S64x17x17 .f32 :=
  exp (subf s (broadcastTo S64x17x17 mx broadcasts_S64x17x1_S64x17x17))

/-- Softmax weights from the exponentials (each row divided by its sum) applied to the value band; rows flattened back. -/
def weigh (e : FVec F S64x17x17 .f32) (vb : FVec F S64x17x64 .f32) : FVec F S1088x64 .f32 :=
  shapeCast S1088x64
    (matmul dot_S64x17x17_S64x17x64_S64x17x64_2_1_1_2_0_0 none
      (divf e (broadcastTo S64x17x17
        (shapeCast S64x17x1 (multiReduction .add [2] S64x17 e 0x00000000#32 reduces_S64x17x17_S64x17 (.inl rfl) rfl) shapeCasts_S64x17_S64x17x1)
        broadcasts_S64x17x1_S64x17x17))
      vb (constant S64x17x64 .f32 0x00000000#32))
    shapeCasts_S64x17x64_S1088x64

/-- One head's context from its score table and value band. -/
def attend (s : FVec F S64x17x17 .f32) (vb : FVec F S64x17x64 .f32) : FVec F S1088x64 .f32 :=
  weigh (expd s (rowMax s)) vb

/-- One head, from the three projections and the bias table. -/
def head (off : Fin 2 → Nat) (hs : S1088x512.Slices off S1088x64) (q k v : FVec F S1088x512 .f32) (p : Vec F S17x17 .f32) :
    FVec F S1088x64 .f32 :=
  attend (scores (band off hs q) (band off hs k) p) (band off hs v)

/-- The residual sum a row is normalised from: contexts · output weight + bias + input. -/
def preNorm (x : FVec F S1088x512 .f32) (c0 c1 c2 c3 c4 c5 c6 c7 : FVec F S1088x64 .f32) (wo : Vec F S512x512 .bf16)
    (bo : Vec F S1x512 .f32) : FVec F S1088x512 .f32 :=
  addf (addf
    (matmul dot_S1088x512_S512x512_S1088x512_1_0_0_1_n_n none
      (truncf .bf16 (concatenate S1088x512 1 [⟨S1088x64, c0⟩, ⟨S1088x64, c1⟩, ⟨S1088x64, c2⟩, ⟨S1088x64, c3⟩, ⟨S1088x64, c4⟩, ⟨S1088x64, c5⟩, ⟨S1088x64, c6⟩, ⟨S1088x64, c7⟩]
        concatenates_S1088x64_S1088x64_S1088x64_S1088x64_S1088x64_S1088x64_S1088x64_S1088x64_S1088x512_d1) bitsLt_bf16_f32)
      (shapeCast S512x512 wo shapeCasts_S512x512_S512x512) (constant S1088x512 .f32 0x00000000#32))
    (broadcastTo S1088x512 (shapeCast S1x512 bo shapeCasts_S1x512_S1x512) broadcasts_S1x512_S1088x512)) x

/-- A row's mean, as a trailing unit axis. -/
def rowMean (y : FVec F S1088x512 .f32) : FVec F S1088x1 .f32 :=
  divf (shapeCast S1088x1 (multiReduction .add [1] S1088 y 0x00000000#32 reduces_S1088x512_S1088 (.inl rfl) rfl) shapeCasts_S1088_S1088x1)
    (broadcast S1088x1 (Scalar.ofBits .f32 0x44000000#32))

/-- Rows centred. -/
def centred (y : FVec F S1088x512 .f32) : FVec F S1088x512 .f32 :=
  subf y (broadcastTo S1088x512 (rowMean y) broadcasts_S1088x1_S1088x512)

/-- Each row centred, divided by the root of (its variance + the small constant), times gamma, plus beta. -/
def normed (y : FVec F S1088x512 .f32) (g b : Vec F S1x512 .f32) : FVec F S1088x512 .f32 :=
  addf (mulf (mulf (centred y)
      (broadcastTo S1088x512 (rsqrt (addf (rowMean (mulf (centred y) (centred y))) (broadcast S1088x1 (Scalar.ofBits .f32 0x3727C5AC#32))))
        broadcasts_S1088x1_S1088x512))
      (broadcastTo S1088x512 (shapeCast S1x512 g shapeCasts_S1x512_S1x512) broadcasts_S1x512_S1088x512))
    (broadcastTo S1088x512 (shapeCast S1x512 b shapeCasts_S1x512_S1x512) broadcasts_S1x512_S1088x512)

/-- The block the body stores, from the blocks it loads. -/
def blockOut (x : Vec F S1088x512 .f32) (p : Vec F S17x17 .f32) (wq wk wv wo : Vec F S512x512 .bf16) (bo g b : Vec F S1x512 .f32) :
    FVec F S1088x512 .f32 :=
  let x1 : FVec F S1088x512 .f32 := shapeCast S1088x512 x shapeCasts_S1088x512_S1088x512
  let q := proj x1 wq
  let k := proj x1 wk
  let v := proj x1 wv
  normed (preNorm x1
    (head ![0, 0] slices_S1088x512_o0_0_S1088x64 q k v p) (head ![0, 64] slices_S1088x512_o0_64_S1088x64 q k v p)
    (head ![0, 128] slices_S1088x512_o0_128_S1088x64 q k v p) (head ![0, 192] slices_S1088x512_o0_192_S1088x64 q k v p)
    (head ![0, 256] slices_S1088x512_o0_256_S1088x64 q k v p) (head ![0, 320] slices_S1088x512_o0_320_S1088x64 q k v p)
    (head ![0, 384] slices_S1088x512_o0_384_S1088x64 q k v p) (head ![0, 448] slices_S1088x512_o0_448_S1088x64 q k v p)
    wo bo) g b

/-- The body's one store holds `blockOut` of the loaded blocks. -/
theorem out_eq (x0 : Vec F S1088x512 .f32) (x1 : Vec F S17x17 .f32) (x2 x3 x4 x5 : Vec F S512x512 .bf16) (x6 x7 x8 : Vec F S1x512 .f32) :
    out0_9 x0 x1 x2 x3 x4 x5 x6 x7 x8
      = View.canon [⟨r0_0, blockOut (View.ld x0 r0_0) (View.ld x1 r0_2) (View.ld x2 r0_1) (View.ld x3 r0_1) (View.ld x4 r0_1) (View.ld x5 r0_1)
          (View.ld x6 r0_3) (View.ld x7 r0_3) (View.ld x8 r0_3)⟩] := rfl

end Cert.KernelIdeal.Stages

end
-- ==== Proof.KernelRun.lean ====
/- The kernel's run read off its frame certificate: the output window's array after the region as ONE function of the
   row-major index, the reshape that follows the region, and the arguments as launched. The arithmetic is a hypothesis
   here (`hG`: what each grid point's body stores, element by element); this module is the passage from blocks to the
   array and through the host operation after the region. -/
import proofs.«181274_j71270687309843_2_alg».proof.Proof.Gen.KernelIdeal.Frame
import Idealize.ShloMosaic.Lib.Pipeline.Value
import Idealize.ShloMosaic.PureOps.Ideal
import Idealize.ShloMosaic.Lib.Tactic

noncomputable section

namespace Cert.KernelIdeal.KRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output window's block index at grid point `t` is `(t, 0)`: point `t` writes rows `1088 t … 1088 t + 1087`. -/
theorem out_index : ∀ t : Fin cfg0.N, win0_9.index t (0 : Fin 2) = t.val ∧ win0_9.index t (1 : Fin 2) = 0 :=
  (by decide +kernel : ∀ t : Fin grid0.N, _)

/-- What the body leaves in the output block at point `t`, element by element, in terms of the input blocks there. -/
abbrev outBlk (c : Dev nD) (t : Fin cfg0.N) : Vec Ideal S1088x512 .f32 :=
  out0_9 (iblk m c 0 t) (iblk m c 1 t) (iblk m c 2 t) (iblk m c 3 t) (iblk m c 4 t) (iblk m c 5 t) (iblk m c 6 t) (iblk m c 7 t) (iblk m c 8 t)

/-- An index of the array is in point `t`'s block iff each coordinate is in the block's range on its axis. -/
theorem mem_blk (t : Fin cfg0.N) (i : S139264x512.Idx) :
    i ∈ ((cfg0.win 9).blk t).view.set ↔ ∀ a : Fin 2, win0_9.index t a * S1088x512.size a ≤ (i a).val ∧ (i a).val < win0_9.index t a * S1088x512.size a + S1088x512.size a := by
  show i ∈ ((View.whole main_v12).slice (win0_9.rect t)).set ↔ _
  rw [View.set_slice_whole, Rect.mem_set_unit]
  exact Iff.rfl

/-- Every index of the array is in some point's block: row `r` is in the block of point `r / 1088`. -/
theorem cover (i : S139264x512.Idx) : ∃ t : Fin cfg0.N, (cfg0.win 9).flush t = true ∧ i ∈ ((cfg0.win 9).blk t).view.set := by
  have hi0 : (i 0).val < 139264 := (i 0).isLt
  have hi1 : (i 1).val < 512 := (i 1).isLt
  have hN : cfg0.N = 128 := N_0
  let t : Fin cfg0.N := ⟨(i 0).val / 1088, by rw [hN]; omega⟩
  obtain ⟨e0, e1⟩ := out_index t
  have ht : t.val = (i 0).val / 1088 := rfl
  refine ⟨t, flush0_9 t, ?_⟩
  rw [mem_blk]
  intro a
  match a with
  | ⟨0, _⟩ => show win0_9.index t (0 : Fin 2) * 1088 ≤ (i 0).val ∧ (i 0).val < win0_9.index t (0 : Fin 2) * 1088 + 1088; omega
  | ⟨1, _⟩ => show win0_9.index t (1 : Fin 2) * 512 ≤ (i 1).val ∧ (i 1).val < win0_9.index t (1 : Fin 2) * 512 + 512; omega

section Run

variable (G : Dev nD → S139264x512.Idx → EReal)
variable (hG : ∀ (c : Dev nD) (t : Fin cfg0.N) (y : S1088x512.Idx) (i : S139264x512.Idx),
    (i 0).val = 1088 * t.val + (y 0).val → (i 1).val = (y 1).val → outBlk m c t y = G c i)

include hG

/-- What point `t` writes back is block `t` of `G`. -/
theorem flushed_eq (c : Dev nD) (t : Fin cfg0.N) :
    (dats m 0 c).flushed 9 t = ((cfg0.win 9).blk t).view.read (Elt Ideal) (G c) := by
  show (cfg0.win 9).cut (grid0.coords t) ((dats m 0 c).after 9 t) = _
  rw [after0_9]
  obtain ⟨e0, e1⟩ := out_index t
  funext y
  refine hG c t y (((cfg0.win 9).blk t).view.emb y) ?_ ?_
  · show win0_9.index t (0 : Fin 2) * 1088 + 1 * (y 0).val = 1088 * t.val + (y 0).val
    rw [e0]; omega
  · show win0_9.index t (1 : Fin 2) * 512 + 1 * (y 1).val = (y 1).val
    rw [e1]; omega

/-- The output window's array after the region is `G`. -/
theorem final (c : Dev nD) : (dats m 0 c).arrAt 9 cfg0.N = G c :=
  (dats m 0 c).arrAt_eq_of_cover 9 (G c) (fun t _ => flushed_eq m G hG c t) cover

/-- The result after the reshape that follows the region: the row-major recast of `G`. -/
theorem tail_eq (c : Dev nD) :
    Pipeline.afterTail₀ cfgs (dats m) 0 (V0 m) [hostOps1] c main_v13
      = shapeCast S32x256x17x512 (G c) shapeCasts_S139264x512_S32x256x17x512 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12) = G c :=
    (Pipeline.withArrays_arr spec0 launch0.win.arr_inj c _ _ 9).trans (final m G hG c)
  rw [e]
  rfl

/-- THE RUN: every weakly fair execution of @main terminates, the result array holds the row-major recast of `G`, and the
    argument arrays are as launched. -/
theorem run : θ_run defs (onTc (τ := τ) (main (F := Ideal))) ⟨m, fun _ => 0, ρ⟩ (fun r => ∀ c : Dev nD,
      r.2.mem ((c.tc : Thread nD τ).loc main_v13) = shapeCast S32x256x17x512 (G c) shapeCasts_S139264x512_S32x256x17x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v13 (Pipeline.mem_restRefs_of main_v13 (by decide) (by decide))).trans (tail_eq m G hG c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Run

end Cert.KernelIdeal.KRun

end
-- ==== Proof.KernelBlocks.lean ====
/- Each input window's block at a grid point, element by element, in terms of the ARGUMENT arrays: the block's
   position in its array (the index maps, decided over the grid) and the host operations before the region (a reshape,
   or a transpose followed by a format change that is the identity on extended reals). -/
import proofs.«181274_j71270687309843_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal

noncomputable section

namespace Cert.KernelIdeal.KRun

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The input windows' block indices: window 0 moves with the grid point along the rows, every other input window
    stays on its one block. -/
theorem in_index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## What the host operations before the region leave in the windows' arrays -/

theorem V_v0 (c : Dev nD) : (V m c main_v0 : S139264x512.Idx → EReal)
    = shapeCast S139264x512 (m ((c.tc : Thread nD τ).loc main_arg0)) shapeCasts_S32x256x17x512_S139264x512 := by
  show StableHlo.after hostOps0 (fun b => m (c, b)) (Proc.devRef .tc main_v0) = _
  after_results
  rfl

theorem V_v1 (c : Dev nD) : (V m c main_v1 : S1x512.Idx → EReal)
    = shapeCast S1x512 (m ((c.tc : Thread nD τ).loc main_arg6)) shapeCasts_S512_S1x512 := by
  show StableHlo.after hostOps0 (fun b => m (c, b)) (Proc.devRef .tc main_v1) = _
  after_results
  rfl

theorem V_v5 (c : Dev nD) : (V m c main_v5 : S512x512.Idx → EReal)
    = transpose S512x512 [1, 0] (m ((c.tc : Thread nD τ).loc main_arg2)) transposes_S512x512_S512x512_1_0 := by
  show StableHlo.after hostOps0 (fun b => m (c, b)) (Proc.devRef .tc main_v5) = _
  after_results
  rfl

theorem V_v2 (c : Dev nD) : (V m c main_v2 : S1x512.Idx → EReal)
    = shapeCast S1x512 (m ((c.tc : Thread nD τ).loc main_arg7)) shapeCasts_S512_S1x512 := by
  show StableHlo.after hostOps0 (fun b => m (c, b)) (Proc.devRef .tc main_v2) = _
  after_results
  rfl

theorem V_v3 (c : Dev nD) : (V m c main_v3 : S1x512.Idx → EReal)
    = shapeCast S1x512 (m ((c.tc : Thread nD τ).loc main_arg8)) shapeCasts_S512_S1x512 := by
  show StableHlo.after hostOps0 (fun b => m (c, b)) (Proc.devRef .tc main_v3) = _
  after_results
  rfl

theorem V_v7 (c : Dev nD) : (V m c main_v7 : S512x512.Idx → EReal)
    = transpose S512x512 [1, 0] (m ((c.tc : Thread nD τ).loc main_arg3)) transposes_S512x512_S512x512_1_0 := by
  show StableHlo.after hostOps0 (fun b => m (c, b)) (Proc.devRef .tc main_v7) = _
  after_results
  rfl

theorem V_v9 (c : Dev nD) : (V m c main_v9 : S512x512.Idx → EReal)
    = transpose S512x512 [1, 0] (m ((c.tc : Thread nD τ).loc main_arg4)) transposes_S512x512_S512x512_1_0 := by
  show StableHlo.after hostOps0 (fun b => m (c, b)) (Proc.devRef .tc main_v9) = _
  after_results
  rfl

theorem V_v11 (c : Dev nD) : (V m c main_v11 : S512x512.Idx → EReal)
    = transpose S512x512 [1, 0] (m ((c.tc : Thread nD τ).loc main_arg5)) transposes_S512x512_S512x512_1_0 := by
  show StableHlo.after hostOps0 (fun b => m (c, b)) (Proc.devRef .tc main_v11) = _
  after_results
  rfl

/-! ## The blocks, element by element -/

/-- Window 0's block at point `t` is rows `1088 t … 1088 t + 1087` of the first argument read as a
    139264 × 512 matrix: element `y` is the argument at ANY index `k` of the four-axis array whose first three
    coordinates number that row and whose last is the column. -/
theorem iblk0_apply (c : Dev nD) (t : Fin cfg0.N) (y : S1088x512.Idx) (k : S32x256x17x512.Idx)
    (hrow : ((k 0).val * 256 + (k 1).val) * 17 + (k 2).val = 1088 * t.val + (y 0).val) (hcol : (k 3).val = (y 1).val) :
    (iblk m c 0 t : S1088x512.Idx → EReal) y = (m ((c.tc : Thread nD τ).loc main_arg0) : S32x256x17x512.Idx → EReal) k := by
  obtain ⟨⟨e0, e1⟩, -⟩ := in_index t
  unfold iblk
  rw [View.read_apply]
  show (V m c main_v0 : S139264x512.Idx → EReal) (((cfg0.win 0).blk t).view.emb y) = _
  rw [V_v0]
  refine shapeCast_apply _ _ _ k ?_
  rw [Shape.rowMajor_val_four, Shape.rowMajor_val_two]
  show (((k 0).val * 256 + (k 1).val) * 17 + (k 2).val) * 512 + (k 3).val
      = (win0_0.index t (0 : Fin 2) * 1088 + 1 * (y 0).val) * 512 + (win0_0.index t (1 : Fin 2) * 512 + 1 * (y 1).val)
  rw [e0, e1, hrow, hcol]; omega

/-- Window 1's block is the whole second argument. -/
theorem iblk1_apply (c : Dev nD) (t : Fin cfg0.N) (y : S17x17.Idx) :
    (iblk m c 1 t : S17x17.Idx → EReal) y = (m ((c.tc : Thread nD τ).loc main_arg1) : S17x17.Idx → EReal) y := by
  obtain ⟨-, ⟨e0, e1⟩, -⟩ := in_index t
  unfold iblk
  rw [View.read_apply]
  show (V m c main_arg1 : S17x17.Idx → EReal) (((cfg0.win 1).blk t).view.emb y) = _
  rw [V_main_arg1]
  refine congrArg _ (funext fun a => Fin.ext ?_)
  match a with
  | ⟨0, _⟩ => show win0_1.index t (0 : Fin 2) * 17 + 1 * (y 0).val = (y 0).val; rw [e0]; omega
  | ⟨1, _⟩ => show win0_1.index t (1 : Fin 2) * 17 + 1 * (y 1).val = (y 1).val; rw [e1]; omega

/-- Window 2's block is the whole of `main_arg2` transposed: element `(y₀, y₁)` is the argument at `(y₁, y₀)`
    (the format change after the transpose is the identity on extended reals). -/
theorem iblk2_apply (c : Dev nD) (t : Fin cfg0.N) (y : S512x512.Idx) (k : S512x512.Idx)
    (h0 : (k 0).val = (y 1).val) (h1 : (k 1).val = (y 0).val) :
    (iblk m c 2 t : S512x512.Idx → EReal) y = (m ((c.tc : Thread nD τ).loc main_arg2) : S512x512.Idx → EReal) k := by
  obtain ⟨-, -, ⟨e0, e1⟩, -⟩ := in_index t
  unfold iblk
  rw [View.read_apply]
  show (V m c main_v5 : S512x512.Idx → EReal) (((cfg0.win 2).blk t).view.emb y) = _
  rw [V_v5]
  refine transpose_apply _ _ _ _ k fun b => ?_
  match b with
  | ⟨0, _⟩ => show (k 1).val = win0_2.index t (0 : Fin 2) * 512 + 1 * (y 0).val; rw [e0, h1]; omega
  | ⟨1, _⟩ => show (k 0).val = win0_2.index t (1 : Fin 2) * 512 + 1 * (y 1).val; rw [e1, h0]; omega

/-- Window 3's block is the whole of `main_arg3` transposed: element `(y₀, y₁)` is the argument at `(y₁, y₀)`
    (the format change after the transpose is the identity on extended reals). -/
theorem iblk3_apply (c : Dev nD) (t : Fin cfg0.N) (y : S512x512.Idx) (k : S512x512.Idx)
    (h0 : (k 0).val = (y 1).val) (h1 : (k 1).val = (y 0).val) :
    (iblk m c 3 t : S512x512.Idx → EReal) y = (m ((c.tc : Thread nD τ).loc main_arg3) : S512x512.Idx → EReal) k := by
  obtain ⟨-, -, -, ⟨e0, e1⟩, -⟩ := in_index t
  unfold iblk
  rw [View.read_apply]
  show (V m c main_v7 : S512x512.Idx → EReal) (((cfg0.win 3).blk t).view.emb y) = _
  rw [V_v7]
  refine transpose_apply _ _ _ _ k fun b => ?_
  match b with
  | ⟨0, _⟩ => show (k 1).val = win0_3.index t (0 : Fin 2) * 512 + 1 * (y 0).val; rw [e0, h1]; omega
  | ⟨1, _⟩ => show (k 0).val = win0_3.index t (1 : Fin 2) * 512 + 1 * (y 1).val; rw [e1, h0]; omega

/-- Window 4's block is the whole of `main_arg4` transposed: element `(y₀, y₁)` is the argument at `(y₁, y₀)`
    (the format change after the transpose is the identity on extended reals). -/
theorem iblk4_apply (c : Dev nD) (t : Fin cfg0.N) (y : S512x512.Idx) (k : S512x512.Idx)
    (h0 : (k 0).val = (y 1).val) (h1 : (k 1).val = (y 0).val) :
    (iblk m c 4 t : S512x512.Idx → EReal) y = (m ((c.tc : Thread nD τ).loc main_arg4) : S512x512.Idx → EReal) k := by
  obtain ⟨-, -, -, -, ⟨e0, e1⟩, -⟩ := in_index t
  unfold iblk
  rw [View.read_apply]
  show (V m c main_v9 : S512x512.Idx → EReal) (((cfg0.win 4).blk t).view.emb y) = _
  rw [V_v9]
  refine transpose_apply _ _ _ _ k fun b => ?_
  match b with
  | ⟨0, _⟩ => show (k 1).val = win0_4.index t (0 : Fin 2) * 512 + 1 * (y 0).val; rw [e0, h1]; omega
  | ⟨1, _⟩ => show (k 0).val = win0_4.index t (1 : Fin 2) * 512 + 1 * (y 1).val; rw [e1, h0]; omega

/-- Window 5's block is the whole of `main_arg5` transposed: element `(y₀, y₁)` is the argument at `(y₁, y₀)`
    (the format change after the transpose is the identity on extended reals). -/
theorem iblk5_apply (c : Dev nD) (t : Fin cfg0.N) (y : S512x512.Idx) (k : S512x512.Idx)
    (h0 : (k 0).val = (y 1).val) (h1 : (k 1).val = (y 0).val) :
    (iblk m c 5 t : S512x512.Idx → EReal) y = (m ((c.tc : Thread nD τ).loc main_arg5) : S512x512.Idx → EReal) k := by
  obtain ⟨-, -, -, -, -, ⟨e0, e1⟩, -⟩ := in_index t
  unfold iblk
  rw [View.read_apply]
  show (V m c main_v11 : S512x512.Idx → EReal) (((cfg0.win 5).blk t).view.emb y) = _
  rw [V_v11]
  refine transpose_apply _ _ _ _ k fun b => ?_
  match b with
  | ⟨0, _⟩ => show (k 1).val = win0_5.index t (0 : Fin 2) * 512 + 1 * (y 0).val; rw [e0, h1]; omega
  | ⟨1, _⟩ => show (k 0).val = win0_5.index t (1 : Fin 2) * 512 + 1 * (y 1).val; rw [e1, h0]; omega

/-- Window 6's block is `main_arg6` read as one row: element `(0, y₁)` is the argument at `y₁`. -/
theorem iblk6_apply (c : Dev nD) (t : Fin cfg0.N) (y : S1x512.Idx) (k : S512.Idx) (h : (k 0).val = (y 1).val) :
    (iblk m c 6 t : S1x512.Idx → EReal) y = (m ((c.tc : Thread nD τ).loc main_arg6) : S512.Idx → EReal) k := by
  obtain ⟨-, -, -, -, -, -, ⟨e0, e1⟩, -⟩ := in_index t
  have hy0 : (y 0).val < 1 := (y 0).isLt
  unfold iblk
  rw [View.read_apply]
  show (V m c main_v1 : S1x512.Idx → EReal) (((cfg0.win 6).blk t).view.emb y) = _
  rw [V_v1]
  refine shapeCast_apply _ _ _ k ?_
  rw [Shape.rowMajor_val_one, Shape.rowMajor_val_two]
  show (k 0).val = (win0_6.index t (0 : Fin 2) * 1 + 1 * (y 0).val) * 512 + (win0_6.index t (1 : Fin 2) * 512 + 1 * (y 1).val)
  rw [e0, e1, h]; omega

/-- Window 7's block is `main_arg7` read as one row: element `(0, y₁)` is the argument at `y₁`. -/
theorem iblk7_apply (c : Dev nD) (t : Fin cfg0.N) (y : S1x512.Idx) (k : S512.Idx) (h : (k 0).val = (y 1).val) :
    (iblk m c 7 t : S1x512.Idx → EReal) y = (m ((c.tc : Thread nD τ).loc main_arg7) : S512.Idx → EReal) k := by
  obtain ⟨-, -, -, -, -, -, -, ⟨e0, e1⟩, -⟩ := in_index t
  have hy0 : (y 0).val < 1 := (y 0).isLt
  unfold iblk
  rw [View.read_apply]
  show (V m c main_v2 : S1x512.Idx → EReal) (((cfg0.win 7).blk t).view.emb y) = _
  rw [V_v2]
  refine shapeCast_apply _ _ _ k ?_
  rw [Shape.rowMajor_val_one, Shape.rowMajor_val_two]
  show (k 0).val = (win0_7.index t (0 : Fin 2) * 1 + 1 * (y 0).val) * 512 + (win0_7.index t (1 : Fin 2) * 512 + 1 * (y 1).val)
  rw [e0, e1, h]; omega

/-- Window 8's block is `main_arg8` read as one row: element `(0, y₁)` is the argument at `y₁`. -/
theorem iblk8_apply (c : Dev nD) (t : Fin cfg0.N) (y : S1x512.Idx) (k : S512.Idx) (h : (k 0).val = (y 1).val) :
    (iblk m c 8 t : S1x512.Idx → EReal) y = (m ((c.tc : Thread nD τ).loc main_arg8) : S512.Idx → EReal) k := by
  obtain ⟨-, -, -, -, -, -, -, -, ⟨e0, e1⟩⟩ := in_index t
  have hy0 : (y 0).val < 1 := (y 0).isLt
  unfold iblk
  rw [View.read_apply]
  show (V m c main_v3 : S1x512.Idx → EReal) (((cfg0.win 8).blk t).view.emb y) = _
  rw [V_v3]
  refine shapeCast_apply _ _ _ k ?_
  rw [Shape.rowMajor_val_one, Shape.rowMajor_val_two]
  show (k 0).val = (win0_8.index t (0 : Fin 2) * 1 + 1 * (y 0).val) * 512 + (win0_8.index t (1 : Fin 2) * 512 + 1 * (y 1).val)
  rw [e0, e1, h]; omega

/-! ## The same, as equations between functions -/

/-- The four-axis index of row `r` of the 139264 = 32 · 256 · 17 rows and column `q`. -/
def rowIdx4 (r : Fin 139264) (q : Fin 512) : S32x256x17x512.Idx :=
  ix4 (⟨r.val / 4352, by have := r.isLt; omega⟩ : Fin 32) (⟨r.val / 17 % 256, Nat.mod_lt _ (by decide)⟩ : Fin 256)
    (⟨r.val % 17, Nat.mod_lt _ (by decide)⟩ : Fin 17) q

/-- Window 0's block at point `t`, at the array index `i` that element `y` of the block sits at. -/
theorem iblk0_at (c : Dev nD) (t : Fin cfg0.N) (y : S1088x512.Idx) (i : S139264x512.Idx)
    (h0 : (i 0).val = 1088 * t.val + (y 0).val) (h1 : (i 1).val = (y 1).val) :
    (iblk m c 0 t : S1088x512.Idx → EReal) y
      = (m ((c.tc : Thread nD τ).loc main_arg0) : S32x256x17x512.Idx → EReal) (rowIdx4 (i 0) (i 1)) := by
  refine iblk0_apply m c t y _ ?_ h1
  show (((i 0).val / 4352) * 256 + (i 0).val / 17 % 256) * 17 + (i 0).val % 17 = 1088 * t.val + (y 0).val
  omega

theorem iblk1_eq (c : Dev nD) (t : Fin cfg0.N) :
    (iblk m c 1 t : S17x17.Idx → EReal) = (m ((c.tc : Thread nD τ).loc main_arg1) : S17x17.Idx → EReal) :=
  funext (iblk1_apply m c t)
theorem iblk2_eq (c : Dev nD) (t : Fin cfg0.N) :
    (iblk m c 2 t : S512x512.Idx → EReal) = fun y => (m ((c.tc : Thread nD τ).loc main_arg2) : S512x512.Idx → EReal) (ix2 (y 1) (y 0)) :=
  funext fun y => iblk2_apply m c t y _ rfl rfl
theorem iblk3_eq (c : Dev nD) (t : Fin cfg0.N) :
    (iblk m c 3 t : S512x512.Idx → EReal) = fun y => (m ((c.tc : Thread nD τ).loc main_arg3) : S512x512.Idx → EReal) (ix2 (y 1) (y 0)) :=
  funext fun y => iblk3_apply m c t y _ rfl rfl
theorem iblk4_eq (c : Dev nD) (t : Fin cfg0.N) :
    (iblk m c 4 t : S512x512.Idx → EReal) = fun y => (m ((c.tc : Thread nD τ).loc main_arg4) : S512x512.Idx → EReal) (ix2 (y 1) (y 0)) :=
  funext fun y => iblk4_apply m c t y _ rfl rfl
theorem iblk5_eq (c : Dev nD) (t : Fin cfg0.N) :
    (iblk m c 5 t : S512x512.Idx → EReal) = fun y => (m ((c.tc : Thread nD τ).loc main_arg5) : S512x512.Idx → EReal) (ix2 (y 1) (y 0)) :=
  funext fun y => iblk5_apply m c t y _ rfl rfl
theorem iblk6_eq (c : Dev nD) (t : Fin cfg0.N) :
    (iblk m c 6 t : S1x512.Idx → EReal) = fun y => (m ((c.tc : Thread nD τ).loc main_arg6) : S512.Idx → EReal) (ix1 (y 1)) :=
  funext fun y => iblk6_apply m c t y _ rfl
theorem iblk7_eq (c : Dev nD) (t : Fin cfg0.N) :
    (iblk m c 7 t : S1x512.Idx → EReal) = fun y => (m ((c.tc : Thread nD τ).loc main_arg7) : S512.Idx → EReal) (ix1 (y 1)) :=
  funext fun y => iblk7_apply m c t y _ rfl
theorem iblk8_eq (c : Dev nD) (t : Fin cfg0.N) :
    (iblk m c 8 t : S1x512.Idx → EReal) = fun y => (m ((c.tc : Thread nD τ).loc main_arg8) : S512.Idx → EReal) (ix1 (y 1)) :=
  funext fun y => iblk8_apply m c t y _ rfl

end Cert.KernelIdeal.KRun

end
-- ==== Proof.Assemble.lean ====
/- The certificate's claims assembled. The kernel's result array (the blocks written back, gathered into one array and
   recast to four axes) and the reference's result are ONE function of the argument arrays: the reference's value at
   the four-axis index of each row and column. What one grid point's body stores — the arithmetic — enters as the
   hypothesis `BlockSpec`; everything here is indices and the two runs. -/
import proofs.«181274_j71270687309843_2_alg».proof.Defs
import proofs.«181274_j71270687309843_2_alg».proof.Proof.Gen.Kernel.Frame
import proofs.«181274_j71270687309843_2_alg».proof.Proof.Gen.KernelIdeal.Frame
import proofs.«181274_j71270687309843_2_alg».proof.Proof.Gen.ReferenceIdeal.Run
import proofs.«181274_j71270687309843_2_alg».proof.Proof.Gen.ReferenceIdeal.Read
import proofs.«181274_j71270687309843_2_alg».proof.Proof.Gen.Pre_finite_inputs
import proofs.«181274_j71270687309843_2_alg».proof.Proof.Stages
import proofs.«181274_j71270687309843_2_alg».proof.Proof.KernelRun
import proofs.«181274_j71270687309843_2_alg».proof.Proof.KernelBlocks
import Idealize.ShloMosaic.Lib.Pipeline.Value
import Idealize.ShloMosaic.Lib.ValueIdx

noncomputable section

namespace Cert.Proof.Assemble

open Idealize.ShloMosaic Idealize.ShloMosaic.TcCoe Idealize.SL.Sem Idealize.ShloMosaic.ValueIdx
open Cert.KernelIdeal Cert.KernelIdeal.Gen Cert.KernelIdeal.KRun

/-- WHAT ONE GRID POINT STORES: if the nine loaded blocks are the argument arrays' entries they should be (rows
    `1088 t … 1088 t + 1087` of the first argument, the small table whole, the four weights transposed, the three
    vectors as rows), the stored block's entry `(r, c)` is the reference's value at the four-axis index of row
    `1088 t + r` and column `c`. -/
def BlockSpec : Prop :=
  ∀ (X : (⟨Cert.ReferenceIdeal.S32x256x17x512, .f32⟩ : BufTy).Contents (Elt Ideal)) (P : (⟨Cert.ReferenceIdeal.S17x17, .f32⟩ : BufTy).Contents (Elt Ideal))
    (Wq Wk Wv Wo : (⟨Cert.ReferenceIdeal.S512x512, .f32⟩ : BufTy).Contents (Elt Ideal)) (Bo Gm Bt : (⟨Cert.ReferenceIdeal.S512, .f32⟩ : BufTy).Contents (Elt Ideal))
    (t : Fin 128)
    (xb : Vec Ideal S1088x512 .f32) (pb : Vec Ideal S17x17 .f32) (wq wk wv wo : Vec Ideal S512x512 .bf16) (bo g b : Vec Ideal S1x512 .f32)
    (hx : ∀ (r : Fin 1088) (c : Fin 512), xb (ix2 r c) = X (ix4 (⟨(64 * t.val + r.val / 17) / 256, by omega⟩ : Fin 32) (⟨(64 * t.val + r.val / 17) % 256, by omega⟩ : Fin 256) (⟨r.val % 17, by omega⟩ : Fin 17) c))
    (hp : ∀ d e : Fin 17, pb (ix2 d e) = P (ix2 d e))
    (hwq : ∀ j c : Fin 512, wq (ix2 j c) = Wq (ix2 c j)) (hwk : ∀ j c : Fin 512, wk (ix2 j c) = Wk (ix2 c j)) (hwv : ∀ j c : Fin 512, wv (ix2 j c) = Wv (ix2 c j)) (hwo : ∀ j c : Fin 512, wo (ix2 j c) = Wo (ix2 c j))
    (hbo : ∀ c : Fin 512, bo (ix2 (0 : Fin 1) c) = Bo (ix1 c)) (hg : ∀ c : Fin 512, g (ix2 (0 : Fin 1) c) = Gm (ix1 c)) (hb : ∀ c : Fin 512, b (ix2 (0 : Fin 1) c) = Bt (ix1 c))
    (r : Fin 1088) (c : Fin 512),
    Cert.KernelIdeal.Stages.blockOut xb pb wq wk wv wo bo g b (ix2 r c)
      = Cert.ReferenceIdeal.Read.val_main_v61 (F := Ideal) X P Wq Wk Wv Wo Bo Gm Bt (ix4 (⟨(64 * t.val + r.val / 17) / 256, by omega⟩ : Fin 32) (⟨(64 * t.val + r.val / 17) % 256, by omega⟩ : Fin 256) (⟨r.val % 17, by omega⟩ : Fin 17) c)

theorem hz : (![0, 0] : Fin 2 → Nat) = fun _ => 0 := funext fun a => by fin_cases a <;> rfl

/-- The same of the body's stored block as the frame names it (one whole-block store of `blockOut` of whole-block loads). -/
theorem out_apply (hB : BlockSpec)
    (X : (⟨Cert.ReferenceIdeal.S32x256x17x512, .f32⟩ : BufTy).Contents (Elt Ideal)) (P : (⟨Cert.ReferenceIdeal.S17x17, .f32⟩ : BufTy).Contents (Elt Ideal))
    (Wq Wk Wv Wo : (⟨Cert.ReferenceIdeal.S512x512, .f32⟩ : BufTy).Contents (Elt Ideal)) (Bo Gm Bt : (⟨Cert.ReferenceIdeal.S512, .f32⟩ : BufTy).Contents (Elt Ideal))
    (t : Fin 128)
    (x0 : Vec Ideal S1088x512 .f32) (x1 : Vec Ideal S17x17 .f32) (x2 x3 x4 x5 : Vec Ideal S512x512 .bf16) (x6 x7 x8 : Vec Ideal S1x512 .f32)
    (hx : ∀ (r : Fin 1088) (c : Fin 512), x0 (ix2 r c) = X (ix4 (⟨(64 * t.val + r.val / 17) / 256, by omega⟩ : Fin 32) (⟨(64 * t.val + r.val / 17) % 256, by omega⟩ : Fin 256) (⟨r.val % 17, by omega⟩ : Fin 17) c))
    (hp : ∀ d e : Fin 17, x1 (ix2 d e) = P (ix2 d e))
    (hwq : ∀ j c : Fin 512, x2 (ix2 j c) = Wq (ix2 c j)) (hwk : ∀ j c : Fin 512, x3 (ix2 j c) = Wk (ix2 c j)) (hwv : ∀ j c : Fin 512, x4 (ix2 j c) = Wv (ix2 c j)) (hwo : ∀ j c : Fin 512, x5 (ix2 j c) = Wo (ix2 c j))
    (hbo : ∀ c : Fin 512, x6 (ix2 (0 : Fin 1) c) = Bo (ix1 c)) (hg : ∀ c : Fin 512, x7 (ix2 (0 : Fin 1) c) = Gm (ix1 c)) (hb : ∀ c : Fin 512, x8 (ix2 (0 : Fin 1) c) = Bt (ix1 c))
    (r : Fin 1088) (c : Fin 512) :
    out0_9 x0 x1 x2 x3 x4 x5 x6 x7 x8 (ix2 r c)
      = Cert.ReferenceIdeal.Read.val_main_v61 (F := Ideal) X P Wq Wk Wv Wo Bo Gm Bt (ix4 (⟨(64 * t.val + r.val / 17) / 256, by omega⟩ : Fin 32) (⟨(64 * t.val + r.val / 17) % 256, by omega⟩ : Fin 256) (⟨r.val % 17, by omega⟩ : Fin 17) c) := by
  rw [Cert.KernelIdeal.Stages.out_eq, View.canon_unit_zero hz]
  simp only [View.ld_unit_zero (S := S1088x512) hz, View.ld_unit_zero (S := S512x512) hz, View.ld_unit_zero (S := S17x17) hz, View.ld_unit_zero (S := S1x512) hz]
  exact hB X P Wq Wk Wv Wo Bo Gm Bt t x0 x1 x2 x3 x4 x5 x6 x7 x8 hx hp hwq hwk hwv hwo hbo hg hb r c

/-- The kernel's output array as one function of the 139264 × 512 index: the reference's value of the kernel's
    argument arrays at the four-axis index of that row and column. -/
def G (m : (ℓ : Loc nD τ sig) → Buf (Elt Ideal) ℓ) (c : Dev nD) : S139264x512.Idx → EReal := fun i =>
  Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (rowIdx4 (i 0) (i 1))

/-- A four-axis array is the row-major recast of its own reading through `rowIdx4`. -/
theorem recast (f : S32x256x17x512.Idx → EReal) :
    f = shapeCast S32x256x17x512 (fun i : S139264x512.Idx => f (rowIdx4 (i 0) (i 1))) shapeCasts_S139264x512_S32x256x17x512 := by
  funext j
  have h0 : (j 0).val < 32 := (j 0).isLt
  have h1 : (j 1).val < 256 := (j 1).isLt
  have h2 : (j 2).val < 17 := (j 2).isLt
  have h3 : (j 3).val < 512 := (j 3).isLt
  refine ((shapeCast_apply _ shapeCasts_S139264x512_S32x256x17x512 j
    (ix2 (⟨((j 0).val * 256 + (j 1).val) * 17 + (j 2).val, by omega⟩ : Fin 139264) (⟨(j 3).val, h3⟩ : Fin 512)) ?_).trans ?_).symm
  · rw [Shape.rowMajor_val_two, Shape.rowMajor_val_four]; rfl
  · show f (rowIdx4 _ _) = f j
    refine congrArg f (funext fun a => Fin.ext ?_)
    match a with
    | ⟨0, _⟩ => show (((j 0).val * 256 + (j 1).val) * 17 + (j 2).val) / 4352 = (j 0).val; omega
    | ⟨1, _⟩ => show (((j 0).val * 256 + (j 1).val) * 17 + (j 2).val) / 17 % 256 = (j 1).val; omega
    | ⟨2, _⟩ => show (((j 0).val * 256 + (j 1).val) * 17 + (j 2).val) % 17 = (j 2).val; omega
    | ⟨3, _⟩ => rfl

/-- Every grid point's stored block is the block of `G` at its rows. -/
theorem hG_of (hB : BlockSpec) (m : (ℓ : Loc nD τ sig) → Buf (Elt Ideal) ℓ) (c : Dev nD) (t : Fin cfg0.N) (y : S1088x512.Idx)
    (i : S139264x512.Idx) (h0 : (i 0).val = 1088 * t.val + (y 0).val) (h1 : (i 1).val = (y 1).val) :
    outBlk m c t y = G m c i := by
  have hN : cfg0.N = 128 := N_0
  have ht : t.val < 128 := by have := t.isLt; omega
  have hy0 : (y 0).val < 1088 := (y 0).isLt
  refine (congrArg (outBlk m c t) (eq_ix2 y)).trans ?_
  refine (out_apply hB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) ⟨t.val, ht⟩
    (iblk m c 0 t) (iblk m c 1 t) (iblk m c 2 t) (iblk m c 3 t) (iblk m c 4 t) (iblk m c 5 t) (iblk m c 6 t) (iblk m c 7 t) (iblk m c 8 t)
    (fun r q => iblk0_apply m c t (ix2 r q) _ (by
      show (((64 * t.val + r.val / 17) / 256) * 256 + (64 * t.val + r.val / 17) % 256) * 17 + r.val % 17 = 1088 * t.val + r.val
      omega) rfl)
    (fun d e => iblk1_apply m c t (ix2 d e))
    (fun j q => iblk2_apply m c t (ix2 j q) (ix2 q j) rfl rfl) (fun j q => iblk3_apply m c t (ix2 j q) (ix2 q j) rfl rfl)
    (fun j q => iblk4_apply m c t (ix2 j q) (ix2 q j) rfl rfl) (fun j q => iblk5_apply m c t (ix2 j q) (ix2 q j) rfl rfl)
    (fun q => iblk6_apply m c t (ix2 (0 : Fin 1) q) (ix1 q) rfl) (fun q => iblk7_apply m c t (ix2 (0 : Fin 1) q) (ix1 q) rfl)
    (fun q => iblk8_apply m c t (ix2 (0 : Fin 1) q) (ix1 q) rfl)
    (y 0) (y 1)).trans ?_
  show Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) _
    = Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (rowIdx4 (i 0) (i 1))
  refine congrArg _ (funext fun a => Fin.ext ?_)
  match a with
  | ⟨0, _⟩ => show (64 * t.val + (y 0).val / 17) / 256 = (i 0).val / 4352; omega
  | ⟨1, _⟩ => show (64 * t.val + (y 0).val / 17) % 256 = (i 0).val / 17 % 256; omega
  | ⟨2, _⟩ => show (y 0).val % 17 = (i 0).val % 17; omega
  | ⟨3, _⟩ => show (y 1).val = (i 1).val; omega

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- From memories that agree on the arguments both programs run and end with one result: the kernel's array is the
    recast of `G` (the blocks gathered), the reference's is its own value, which is the recast of its reading through
    the rows' four-axis indices — the same function. -/
theorem algebraic_of (hB : BlockSpec) : Cert.algebraic_KernelIdeal_ReferenceIdeal := by
  intro m ρ m' ρ' _ hagree
  refine ⟨fun c => shapeCast S32x256x17x512 (G m c) shapeCasts_S139264x512_S32x256x17x512,
    Cert.KernelIdeal.KRun.run m ρ (G m) (hG_of hB m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact recast _

/-- Everything the certificate claims, from the arithmetic of one grid point. -/
theorem claim_of (hB : BlockSpec) : Cert.Claim :=
  ⟨Cert.Kernel.Gen.facts, Cert.KernelIdeal.Gen.facts, Cert.ReferenceIdeal.Gen.facts, Cert.Pre_finite_inputs.Gen.facts,
    frame_p, frame_pi, frame_ri, preserves, algebraic_of hB⟩

end Cert.Proof.Assemble

end
-- ==== Proof.Proj.lean ====
/-
  A dense projection read entry by entry: row r of the block times column c of the (already transposed) weight,
  a sum over the 512 input channels.
-/
import proofs.«181274_j71270687309843_2_alg».proof.Proof.Stages
import Idealize.ShloMosaic.Lib.ValueIdx
import Idealize.ShloMosaic.Lib.Pipeline.Value
import Idealize.ShloMosaic.PureOps.Ideal.Laws

noncomputable section

namespace Cert.KernelIdeal.Proj

open Idealize.ShloMosaic Idealize.ShloMosaic.ValueIdx Cert.KernelIdeal Cert.KernelIdeal.Gen

/-- Which operand entries a product of this matrix shape pairs at output (i 0, i 1) and inner index q: (i 0, q) and (q, i 1). -/
theorem lhs0 (i : S1088x512.Idx) (q : dot_S1088x512_S512x512_S1088x512_1_0_0_1_n_n.contr.Idx) :
    (dot_S1088x512_S512x512_S1088x512_1_0_0_1_n_n.lhsIdx i q 0).val = (i 0).val := by
  unfold DotDims.lhsIdx
  rw [dif_neg (show ¬(0 : Fin S1088x512.rank) ∈ dot_S1088x512_S512x512_S1088x512_1_0_0_1_n_n.lhsBatch by decide),
    dif_pos (show (0 : Fin S1088x512.rank) ∈ dot_S1088x512_S512x512_S1088x512_1_0_0_1_n_n.lhsNonContracting by decide)]
  rfl
theorem lhs1 (i : S1088x512.Idx) (q : dot_S1088x512_S512x512_S1088x512_1_0_0_1_n_n.contr.Idx) :
    (dot_S1088x512_S512x512_S1088x512_1_0_0_1_n_n.lhsIdx i q 1).val = (q ⟨0, by decide⟩).val :=
  dot_S1088x512_S512x512_S1088x512_1_0_0_1_n_n.lhsIdx_val_of_single rfl i q
theorem rhs0 (i : S1088x512.Idx) (q : dot_S1088x512_S512x512_S1088x512_1_0_0_1_n_n.contr.Idx) :
    (dot_S1088x512_S512x512_S1088x512_1_0_0_1_n_n.rhsIdx i q 0).val = (q ⟨0, by decide⟩).val :=
  dot_S1088x512_S512x512_S1088x512_1_0_0_1_n_n.rhsIdx_val_of_single rfl i q
theorem rhs1 (i : S1088x512.Idx) (q : dot_S1088x512_S512x512_S1088x512_1_0_0_1_n_n.contr.Idx) :
    (dot_S1088x512_S512x512_S1088x512_1_0_0_1_n_n.rhsIdx i q 1).val = (i 1).val := by
  unfold DotDims.rhsIdx
  rw [dif_neg (show ¬(1 : Fin S512x512.rank) ∈ dot_S1088x512_S512x512_S1088x512_1_0_0_1_n_n.rhsBatch by decide),
    dif_pos (show (1 : Fin S512x512.rank) ∈ dot_S1088x512_S512x512_S1088x512_1_0_0_1_n_n.rhsNonContracting by decide)]
  rfl

/-- Entry (r, c) of a projection is Σ_m x(r, m) · w(m, c). -/
theorem proj_apply (x : FVec Ideal S1088x512 .f32) (w : Vec Ideal S512x512 .bf16) (r : Fin 1088) (c : Fin 512) :
    Stages.proj x w (ix2 r c) = ∑ m : Fin 512, x (ix2 r m) * w (ix2 m c) := by
  unfold Stages.proj
  simp only [matmul]
  rw [Ideal.matmul_constant_zero_apply,
    ← Equiv.sum_comp (contrEquiv1 dot_S1088x512_S512x512_S1088x512_1_0_0_1_n_n 512 rfl rfl).symm]
  refine Finset.sum_congr rfl fun k _ => ?_
  have hk := contrEquiv1_symm_val dot_S1088x512_S512x512_S1088x512_1_0_0_1_n_n 512 rfl rfl k
  have el : dot_S1088x512_S512x512_S1088x512_1_0_0_1_n_n.lhsIdx (ix2 r c)
      ((contrEquiv1 dot_S1088x512_S512x512_S1088x512_1_0_0_1_n_n 512 rfl rfl).symm k) = ix2 r k :=
    funext fun a => Fin.ext (by
      match a with
      | ⟨0, _⟩ => exact lhs0 _ _
      | ⟨1, _⟩ => exact (lhs1 _ _).trans hk)
  have er : dot_S1088x512_S512x512_S1088x512_1_0_0_1_n_n.rhsIdx (ix2 r c)
      ((contrEquiv1 dot_S1088x512_S512x512_S1088x512_1_0_0_1_n_n 512 rfl rfl).symm k) = ix2 k c :=
    funext fun a => Fin.ext (by
      match a with
      | ⟨0, _⟩ => exact (rhs0 _ _).trans hk
      | ⟨1, _⟩ => exact rhs1 _ _)
  rw [el, er, shapeCast_self]
  rfl

end Cert.KernelIdeal.Proj

end
-- ==== Proof.Ops.lean ====
/-
  The body's vector operations read at an index, at the shapes of one head: the two batched products (queries with
  keys, weights with values), a row's sum and a row's maximum over the 17 nodes, the trailing-unit-axis casts and
  broadcasts that carry a row statistic back over the row, the bias table broadcast over positions, a 64-column band
  of a projection with rows regrouped as (position, node), and the regrouping back.
-/
import proofs.«181274_j71270687309843_2_alg».proof.Proof.Stages
import Idealize.ShloMosaic.Lib.ValueIdx
import Idealize.ShloMosaic.Lib.Pipeline.Value
import Idealize.ShloMosaic.PureOps.Ideal.Laws

noncomputable section

namespace Cert.KernelIdeal.Ops

open Idealize.ShloMosaic Idealize.ShloMosaic.ValueIdx Cert.KernelIdeal Cert.KernelIdeal.Gen

abbrev D1 := dot_S64x17x64_S64x17x64_S64x17x17_2_2_1_1_0_0
abbrev D2 := dot_S64x17x17_S64x17x64_S64x17x64_2_1_1_2_0_0

/-! ## Queries with keys: output (b, d, e) pairs (b, d, k) with (b, e, k) -/

theorem qk_l0 (i : S64x17x17.Idx) (q : D1.contr.Idx) : (D1.lhsIdx i q 0).val = (i 0).val := by
  unfold DotDims.lhsIdx
  rw [dif_pos (show (0 : Fin S64x17x64.rank) ∈ D1.lhsBatch by decide)]
  rfl
theorem qk_l1 (i : S64x17x17.Idx) (q : D1.contr.Idx) : (D1.lhsIdx i q 1).val = (i 1).val := by
  unfold DotDims.lhsIdx
  rw [dif_neg (show ¬(1 : Fin S64x17x64.rank) ∈ D1.lhsBatch by decide),
    dif_pos (show (1 : Fin S64x17x64.rank) ∈ D1.lhsNonContracting by decide)]
  rfl
theorem qk_l2 (i : S64x17x17.Idx) (q : D1.contr.Idx) : (D1.lhsIdx i q 2).val = (q ⟨0, by decide⟩).val :=
  D1.lhsIdx_val_of_single rfl i q
theorem qk_r0 (i : S64x17x17.Idx) (q : D1.contr.Idx) : (D1.rhsIdx i q 0).val = (i 0).val := by
  unfold DotDims.rhsIdx
  rw [dif_pos (show (0 : Fin S64x17x64.rank) ∈ D1.rhsBatch by decide)]
  rfl
theorem qk_r1 (i : S64x17x17.Idx) (q : D1.contr.Idx) : (D1.rhsIdx i q 1).val = (i 2).val := by
  unfold DotDims.rhsIdx
  rw [dif_neg (show ¬(1 : Fin S64x17x64.rank) ∈ D1.rhsBatch by decide),
    dif_pos (show (1 : Fin S64x17x64.rank) ∈ D1.rhsNonContracting by decide)]
  rfl
theorem qk_r2 (i : S64x17x17.Idx) (q : D1.contr.Idx) : (D1.rhsIdx i q 2).val = (q ⟨0, by decide⟩).val :=
  D1.rhsIdx_val_of_single rfl i q

/-- Entry (b, d, e) of the query-key product is Σ_k q(b, d, k) · k(b, e, k). -/
theorem qk_apply (qb kb : FVec Ideal S64x17x64 .f32) (b : Fin 64) (d e : Fin 17) :
    matmul D1 none qb kb (constant S64x17x17 .f32 0x00000000#32) (ix3 b d e)
      = ∑ k : Fin 64, qb (ix3 b d k) * kb (ix3 b e k) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix3 b d e) ((contrEquiv1 D1 64 rfl rfl).symm k) = ix3 b d k :=
    funext fun a => Fin.ext (by
      match a with
      | ⟨0, _⟩ => exact qk_l0 _ _
      | ⟨1, _⟩ => exact qk_l1 _ _
      | ⟨2, _⟩ => exact (qk_l2 _ _).trans hk)
  have er : D1.rhsIdx (ix3 b d e) ((contrEquiv1 D1 64 rfl rfl).symm k) = ix3 b e k :=
    funext fun a => Fin.ext (by
      match a with
      | ⟨0, _⟩ => exact qk_r0 _ _
      | ⟨1, _⟩ => exact qk_r1 _ _
      | ⟨2, _⟩ => exact (qk_r2 _ _).trans hk)
  rw [el, er]

/-! ## Weights with values: output (b, d, k) pairs (b, d, e) with (b, e, k) -/

theorem av_l0 (i : S64x17x64.Idx) (q : D2.contr.Idx) : (D2.lhsIdx i q 0).val = (i 0).val := by
  unfold DotDims.lhsIdx
  rw [dif_pos (show (0 : Fin S64x17x17.rank) ∈ D2.lhsBatch by decide)]
  rfl
theorem av_l1 (i : S64x17x64.Idx) (q : D2.contr.Idx) : (D2.lhsIdx i q 1).val = (i 1).val := by
  unfold DotDims.lhsIdx
  rw [dif_neg (show ¬(1 : Fin S64x17x17.rank) ∈ D2.lhsBatch by decide),
    dif_pos (show (1 : Fin S64x17x17.rank) ∈ D2.lhsNonContracting by decide)]
  rfl
theorem av_l2 (i : S64x17x64.Idx) (q : D2.contr.Idx) : (D2.lhsIdx i q 2).val = (q ⟨0, by decide⟩).val :=
  D2.lhsIdx_val_of_single rfl i q
theorem av_r0 (i : S64x17x64.Idx) (q : D2.contr.Idx) : (D2.rhsIdx i q 0).val = (i 0).val := by
  unfold DotDims.rhsIdx
  rw [dif_pos (show (0 : Fin S64x17x64.rank) ∈ D2.rhsBatch by decide)]
  rfl
theorem av_r1 (i : S64x17x64.Idx) (q : D2.contr.Idx) : (D2.rhsIdx i q 1).val = (q ⟨0, by decide⟩).val :=
  D2.rhsIdx_val_of_single rfl i q
theorem av_r2 (i : S64x17x64.Idx) (q : D2.contr.Idx) : (D2.rhsIdx i q 2).val = (i 2).val := by
  unfold DotDims.rhsIdx
  rw [dif_neg (show ¬(2 : Fin S64x17x64.rank) ∈ D2.rhsBatch by decide),
    dif_pos (show (2 : Fin S64x17x64.rank) ∈ D2.rhsNonContracting by decide)]
  rfl

/-- Entry (b, d, k) of the weights-values product is Σ_e a(b, d, e) · v(b, e, k). -/
theorem av_apply (a : FVec Ideal S64x17x17 .f32) (vb : FVec Ideal S64x17x64 .f32) (b : Fin 64) (d : Fin 17) (k : Fin 64) :
    matmul D2 none a vb (constant S64x17x64 .f32 0x00000000#32) (ix3 b d k)
      = ∑ e : Fin 17, a (ix3 b d e) * vb (ix3 b e k) := by
  simp only [matmul]
  rw [Ideal.matmul_constant_zero_apply, ← Equiv.sum_comp (contrEquiv1 D2 17 rfl rfl).symm]
  refine Finset.sum_congr rfl fun e _ => ?_
  have hk := contrEquiv1_symm_val D2 17 rfl rfl e
  have el : D2.lhsIdx (ix3 b d k) ((contrEquiv1 D2 17 rfl rfl).symm e) = ix3 b d e :=
    funext fun ax => Fin.ext (by
      match ax with
      | ⟨0, _⟩ => exact av_l0 _ _
      | ⟨1, _⟩ => exact av_l1 _ _
      | ⟨2, _⟩ => exact (av_l2 _ _).trans hk)
  have er : D2.rhsIdx (ix3 b d k) ((contrEquiv1 D2 17 rfl rfl).symm e) = ix3 b e k :=
    funext fun ax => Fin.ext (by
      match ax with
      | ⟨0, _⟩ => exact av_r0 _ _
      | ⟨1, _⟩ => exact (av_r1 _ _).trans hk
      | ⟨2, _⟩ => exact av_r2 _ _)
  rw [el, er]

/-! ## A row's sum and maximum over the 17 nodes -/

/-- The reduced index (b, d) with node e put back is (b, d, e). -/
theorem lift_ix (b : Fin 64) (d : Fin 17) (e : Fin (S64x17x17.size 2)) :
    reduces_S64x17x17_S64x17.lift (ix2 b d) e = ix3 b d (⟨e.val, e.isLt⟩ : Fin 17) := by
  funext a; apply Fin.ext
  match a with
  | ⟨0, _⟩ => rfl
  | ⟨1, _⟩ => rfl
  | ⟨2, _⟩ => rfl

theorem rowSum_apply (x : FVec Ideal S64x17x17 .f32) (b : Fin 64) (d : Fin 17) :
    multiReduction .add [2] S64x17 x 0x00000000#32 reduces_S64x17x17_S64x17 (.inl rfl) rfl (ix2 b d)
      = ∑ e : Fin 17, x (ix3 b d e) := by
  refine (Ideal.multiReduction_add_single x 0x00000000#32 reduces_S64x17x17_S64x17 (.inl rfl) rfl (ix2 b d)).trans ?_
  exact Finset.sum_congr rfl fun e _ => congrArg x (lift_ix b d e)

theorem rowMax_apply (x : FVec Ideal S64x17x17 .f32) (b : Fin 64) (d : Fin 17) :
    multiReduction .maximumf [2] S64x17 x 0xFF800000#32 reduces_S64x17x17_S64x17 (.inl rfl) rfl (ix2 b d)
      = (Finset.univ : Finset (Fin 17)).fold max (Ideal.ofBits .f32 0xFF800000#32) (fun e => x (ix3 b d e)) := by
  refine (Ideal.multiReduction_maximumf_single x 0xFF800000#32 reduces_S64x17x17_S64x17 (.inl rfl) rfl (ix2 b d)).trans ?_
  have hf : (x ∘ reduces_S64x17x17_S64x17.lift (ix2 b d)) = fun e : Fin 17 => x (ix3 b d e) :=
    funext fun e => congrArg x (lift_ix b d e)
  exact congrArg (fun f => Finset.fold max (Ideal.ofBits .f32 0xFF800000#32) f (Finset.univ : Finset (Fin 17))) hf

/-! ## Carrying a row statistic back over the row -/

theorem keep_apply (z : FVec Ideal S64x17 .f32) (b : Fin 64) (d : Fin 17) :
    shapeCast S64x17x1 z shapeCasts_S64x17_S64x17x1 (ix3 b d (0 : Fin 1)) = z (ix2 b d) := by
  refine shapeCast_apply z shapeCasts_S64x17_S64x17x1 (ix3 b d (0 : Fin 1)) (ix2 b d) ?_
  rw [Shape.rowMajor_val_two, Shape.rowMajor_val_three]
  show b.val * 17 + d.val = (b.val * 17 + d.val) * 1 + 0
  omega

theorem spread_apply (z : FVec Ideal S64x17x1 .f32) (b : Fin 64) (d e : Fin 17) :
    broadcastTo S64x17x17 z broadcasts_S64x17x1_S64x17x17 (ix3 b d e) = z (ix3 b d (0 : Fin 1)) := by
  refine broadcastTo_apply z broadcasts_S64x17x1_S64x17x17 (ix3 b d e) (ix3 b d (0 : Fin 1)) fun ax => ?_
  match ax with
  | ⟨0, _⟩ => show b.val = if (64 : Nat) = 1 then 0 else b.val; rw [if_neg (by decide)]
  | ⟨1, _⟩ => show d.val = if (17 : Nat) = 1 then 0 else d.val; rw [if_neg (by decide)]
  | ⟨2, _⟩ => show 0 = if (1 : Nat) = 1 then 0 else e.val; rw [if_pos rfl]

/-- The bias table broadcast over the 64 positions. -/
theorem bias_apply (p : Vec Ideal S17x17 .f32) (b : Fin 64) (d e : Fin 17) :
    broadcastTo S64x17x17 (shapeCast S1x17x17 p shapeCasts_S17x17_S1x17x17) broadcasts_S1x17x17_S64x17x17 (ix3 b d e)
      = p (ix2 d e) := by
  refine (broadcastTo_apply _ broadcasts_S1x17x17_S64x17x17 (ix3 b d e) (ix3 (0 : Fin 1) d e) fun ax => ?_).trans ?_
  · match ax with
    | ⟨0, _⟩ => show 0 = if (1 : Nat) = 1 then 0 else b.val; rw [if_pos rfl]
    | ⟨1, _⟩ => show d.val = if (17 : Nat) = 1 then 0 else d.val; rw [if_neg (by decide)]
    | ⟨2, _⟩ => show e.val = if (17 : Nat) = 1 then 0 else e.val; rw [if_neg (by decide)]
  · refine shapeCast_apply p shapeCasts_S17x17_S1x17x17 (ix3 (0 : Fin 1) d e) (ix2 d e) ?_
    rw [Shape.rowMajor_val_two, Shape.rowMajor_val_three]
    show d.val * 17 + e.val = (0 * 17 + d.val) * 17 + e.val
    omega

/-! ## Bands and regrouping -/

/-- A band's entry (b, d, k) is the projection's entry at row 17·b + d and column (band offset) + k. -/
theorem band_apply (off : Fin 2 → Nat) (hs : S1088x512.Slices off S1088x64) (o : Nat) (h0 : off 0 = 0) (h1 : off 1 = o)
    (y : FVec Ideal S1088x512 .f32) (b : Fin 64) (d : Fin 17) (k : Fin 64) (r : Fin 1088) (cc : Fin 512)
    (hr : r.val = 17 * b.val + d.val) (hc : cc.val = o + k.val) :
    Stages.band off hs y (ix3 b d k) = y (ix2 r cc) := by
  unfold Stages.band
  have hb := b.isLt
  have hd := d.isLt
  refine (shapeCast_apply _ shapeCasts_S1088x64_S64x17x64 (ix3 b d k) (ix2 (⟨17 * b.val + d.val, by omega⟩ : Fin 1088) k) ?_).trans ?_
  · rw [Shape.rowMajor_val_two, Shape.rowMajor_val_three]
    show (17 * b.val + d.val) * 64 + k.val = (b.val * 17 + d.val) * 64 + k.val
    omega
  · refine extractStridedSlice_apply off y hs _ (ix2 r cc) fun ax => ?_
    match ax with
    | ⟨0, _⟩ => show r.val = off 0 + (17 * b.val + d.val); rw [h0]; omega
    | ⟨1, _⟩ => show cc.val = off 1 + k.val; rw [h1]; exact hc

/-- Rows regrouped back: flat row r is (position r / 17, node r % 17). -/
theorem flat_apply (y : FVec Ideal S64x17x64 .f32) (r : Fin 1088) (k : Fin 64) (b : Fin 64) (d : Fin 17)
    (hb : b.val = r.val / 17) (hd : d.val = r.val % 17) :
    shapeCast S1088x64 y shapeCasts_S64x17x64_S1088x64 (ix2 r k) = y (ix3 b d k) := by
  refine shapeCast_apply y shapeCasts_S64x17x64_S1088x64 (ix2 r k) (ix3 b d k) ?_
  rw [Shape.rowMajor_val_two, Shape.rowMajor_val_three]
  show (b.val * 17 + d.val) * 64 + k.val = r.val * 64 + k.val
  omega

end Cert.KernelIdeal.Ops

end
-- ==== Proof.Softmax.lean ====
/-
  The row-wise softmax both programs compute, on one row of 17 scores: the row's maximum (a fold of max from −∞),
  the exponentials of the scores less that maximum, each divided by their sum, and the weighted sum of 17 values.
-/
import Idealize.ShloMosaic.PureOps.Ideal

noncomputable section

namespace Cert.Softmax

open Idealize.ShloMosaic

/-- The largest of the 17 scores (−∞ if all are). -/
def rmax (S : Fin 17 → EReal) : EReal := (Finset.univ : Finset (Fin 17)).fold max (Ideal.ofBits .f32 0xFF800000#32) S

/-- exp (score − row maximum). -/
def wexp (S : Fin 17 → EReal) (e : Fin 17) : EReal := Ideal.exp (S e - rmax S)

/-- Σ_e softmax(S)(e) · V(e). -/
def ctx (S V : Fin 17 → EReal) : EReal := ∑ e : Fin 17, Ideal.div (wexp S e) (∑ e' : Fin 17, wexp S e') * V e

end Cert.Softmax

end
-- ==== Proof.KerHead.lean ====
/-
  One head of the kernel read entry by entry: the score table, and the context as the row-wise softmax of the scores
  applied to the value band — in the same form the reference's head is read in.
-/
import proofs.«181274_j71270687309843_2_alg».proof.Proof.Ops
import proofs.«181274_j71270687309843_2_alg».proof.Proof.Softmax

noncomputable section

namespace Cert.KernelIdeal.KerHead

open Idealize.ShloMosaic Idealize.ShloMosaic.ValueIdx Cert.KernelIdeal Cert.KernelIdeal.Gen Cert.KernelIdeal.Ops Cert.Softmax

/-- Score (b, d, e) = (Σ_k q(b,d,k) · k(b,e,k)) · (1/8) + P(d, e). -/
theorem scores_apply (qb kb : FVec Ideal S64x17x64 .f32) (p : Vec Ideal S17x17 .f32) (b : Fin 64) (d e : Fin 17) :
    Stages.scores qb kb p (ix3 b d e)
      = (∑ k : Fin 64, qb (ix3 b d k) * kb (ix3 b e k)) * Ideal.ofBits .f32 0x3E000000#32 + p (ix2 d e) := by
  unfold Stages.scores
  rw [addf_apply, mulf_apply, bias_apply, qk_apply]
  rfl

/-- The exponentials of a row: exp (score − row maximum). -/
theorem expd_apply (s : FVec Ideal S64x17x17 .f32) (b : Fin 64) (d e : Fin 17) :
    Stages.expd s (Stages.rowMax s) (ix3 b d e) = wexp (fun e' => s (ix3 b d e')) e := by
  unfold Stages.expd Stages.rowMax
  show Ideal.exp (s (ix3 b d e) - broadcastTo S64x17x17 _ broadcasts_S64x17x1_S64x17x17 (ix3 b d e)) = _
  rw [spread_apply, keep_apply, rowMax_apply]
  rfl

/-- Context entry (r, k): the softmax of row (r / 17, r % 17) of the scores applied to column k of the value band. -/
theorem attend_apply (s : FVec Ideal S64x17x17 .f32) (vb : FVec Ideal S64x17x64 .f32) (r : Fin 1088) (k : Fin 64)
    (b : Fin 64) (d : Fin 17) (hb : b.val = r.val / 17) (hd : d.val = r.val % 17) :
    Stages.attend s vb (ix2 r k) = ctx (fun e => s (ix3 b d e)) (fun e => vb (ix3 b e k)) := by
  unfold Stages.attend Stages.weigh
  rw [flat_apply _ r k b d hb hd, av_apply]
  unfold ctx
  refine Finset.sum_congr rfl fun e _ => ?_
  rw [divf_apply, spread_apply, keep_apply, rowSum_apply]
  simp only [expd_apply]

end Cert.KernelIdeal.KerHead

end
-- ==== Proof.RefHead.lean ====
/-
  The reference's attention head, read entry by entry. For position n, head h, node d:
    * the projections regrouped by head: entry (n, h, d, k) of a regrouped projection is entry (n, d, 64·h + k) of the projection;
    * the score S(e) = (Σ_k q(n,d,64h+k) · k(n,e,64h+k)) · (1 / √64) + P(d, e);
    * the weights: exp(S(e) − max_e S) divided by the sum of these over e;
    * the context: Σ_e weight(e) · v(n, e, 64h+k).
-/
import proofs.«181274_j71270687309843_2_alg».proof.Proof.Gen.ReferenceIdeal.Read
import Idealize.ShloMosaic.Lib.ValueIdx
import Idealize.ShloMosaic.PureOps.Ideal.Laws
import Idealize.ShloMosaic.PureOps.Reduce
import proofs.«181274_j71270687309843_2_alg».proof.Proof.Softmax

noncomputable section

namespace Cert.ReferenceIdeal.RefHead

open Idealize.ShloMosaic Idealize.ShloMosaic.ValueIdx Cert.ReferenceIdeal Cert.ReferenceIdeal.Gen Cert.ReferenceIdeal.Read Cert.Softmax

variable (X : (⟨S32x256x17x512, .f32⟩ : BufTy).Contents (Elt Ideal)) (P : (⟨S17x17, .f32⟩ : BufTy).Contents (Elt Ideal))
  (Wq Wk Wv : (⟨S512x512, .f32⟩ : BufTy).Contents (Elt Ideal))

/-- Channel 64·h + k of a [.., 512] array is entry (h, k) of its regrouping into 8 heads of 64. -/
theorem regroup_ix (y : S8192x17x512.Idx → EReal) (n : Fin 8192) (h : Fin 8) (d : Fin 17) (k : Fin 64) (c : Fin 512)
    (hc : c.val = 64 * h.val + k.val) :
    y (idx_main_v4 (idx_main_v5 (ix4 n h d k))) = y (ix3 n d c) := by
  have hn := n.isLt; have hh := h.isLt; have hd := d.isLt; have hk := k.isLt
  refine congrArg y (funext fun a => Fin.ext ?_)
  match a with
  | ⟨0, _⟩ => show (((n.val * 17 + d.val) * 8 + h.val) * 64 + k.val) / 8704 = n.val; omega
  | ⟨1, _⟩ => show (((n.val * 17 + d.val) * 8 + h.val) * 64 + k.val) / 512 % 17 = d.val; omega
  | ⟨2, _⟩ => show (((n.val * 17 + d.val) * 8 + h.val) * 64 + k.val) % 512 = c.val; omega

theorem v5_ix (n : Fin 8192) (h : Fin 8) (d : Fin 17) (k : Fin 64) (c : Fin 512) (hc : c.val = 64 * h.val + k.val) :
    val_main_v5 (F := Ideal) X Wq (ix4 n h d k) = val_main_v3 (F := Ideal) X Wq (ix3 n d c) := by
  rw [val_main_v5_apply, val_main_v4_apply]
  exact regroup_ix _ n h d k c hc

theorem v8_ix (n : Fin 8192) (h : Fin 8) (d : Fin 17) (k : Fin 64) (c : Fin 512) (hc : c.val = 64 * h.val + k.val) :
    val_main_v8 (F := Ideal) X Wk (ix4 n h d k) = val_main_v6 (F := Ideal) X Wk (ix3 n d c) := by
  rw [val_main_v8_apply, val_main_v7_apply]
  exact regroup_ix _ n h d k c hc

theorem v11_ix (n : Fin 8192) (h : Fin 8) (d : Fin 17) (k : Fin 64) (c : Fin 512) (hc : c.val = 64 * h.val + k.val) :
    val_main_v11 (F := Ideal) X Wv (ix4 n h d k) = val_main_v9 (F := Ideal) X Wv (ix3 n d c) := by
  rw [val_main_v11_apply, val_main_v10_apply]
  exact regroup_ix _ n h d k c hc

/-- The reference's scale: 1 / √64 as it computes it. -/
def scale : EReal := Ideal.div (Ideal.ofBits .f32 0x3F800000#32) (Ideal.sqrt (Ideal.ofBits .f32 0x42800000#32))

/-- A score, from the regrouped projections. -/
theorem v17_ix (n : Fin 8192) (h : Fin 8) (d e : Fin 17) :
    val_main_v17 (F := Ideal) X P Wq Wk (ix4 n h d e)
      = (∑ k : Fin 64, val_main_v5 (F := Ideal) X Wq (ix4 n h d k) * val_main_v8 (F := Ideal) X Wk (ix4 n h e k)) * scale
        + P (ix2 d e) := by
  rw [val_main_v17_apply, val_main_v14_apply, val_main_v12_apply, val_main_v13_apply, val_main_v16_apply, val_main_v15_apply]
  have hl : ∀ k : Fin 64, lidx_main_v12 (ix4 n h d e) k = ix4 n h d k := fun k =>
    funext fun a => by match a with | ⟨0, _⟩ => rfl | ⟨1, _⟩ => rfl | ⟨2, _⟩ => rfl | ⟨3, _⟩ => rfl
  have hr : ∀ k : Fin 64, ridx_main_v12 (ix4 n h d e) k = ix4 n h e k := fun k =>
    funext fun a => by match a with | ⟨0, _⟩ => rfl | ⟨1, _⟩ => rfl | ⟨2, _⟩ => rfl | ⟨3, _⟩ => rfl
  have hp : idx_main_v15 (idx_main_v16 (ix4 n h d e)) = ix2 d e :=
    funext fun a => by match a with | ⟨0, _⟩ => rfl | ⟨1, _⟩ => rfl
  have hs : val_main_v1 (F := Ideal) (idx_main_v13 (ix4 n h d e)) = scale := rfl
  rw [hp, hs]
  simp only [hl, hr]
  rfl

/-- The 17 scores of row (n, h, d). -/
def S (n : Fin 8192) (h : Fin 8) (d : Fin 17) : Fin 17 → EReal := fun e => val_main_v17 (F := Ideal) X P Wq Wk (ix4 n h d e)

/-- The reference's row maximum: max of −∞ and the reduce from −∞, which is the fold itself. -/
theorem v20_ix (n : Fin 8192) (h : Fin 8) (d : Fin 17) :
    val_main_v20 (F := Ideal) X P Wq Wk (ix3 n h d) = rmax (S X P Wq Wk n h d) := by
  rw [val_main_v20_apply]
  have h19 : val_main_v19 (F := Ideal) (ix3 n h d) = Ideal.ofBits .f32 0xFF800000#32 := by
    rw [val_main_v19_apply]; rfl
  have h18 : val_main_v18 (F := Ideal) X P Wq Wk (ix3 n h d) = rmax (S X P Wq Wk n h d) := by
    unfold val_main_v18
    rw [Host.reduce_eq_fold_single FloatOps.maximumf _ _ reducesTo_S8192x8x17x17_S8192x8x17_d3
      (by decide : S8192x8x17x17.Reduces [3] S8192x8x17) h_S_]
    have hf : (val_main_v17 (F := Ideal) X P Wq Wk ∘ (by decide : S8192x8x17x17.Reduces [3] S8192x8x17).lift (ix3 n h d))
        = S X P Wq Wk n h d :=
      funext fun e => congrArg (val_main_v17 (F := Ideal) X P Wq Wk)
        (funext fun a => Fin.ext (by match a with | ⟨0, _⟩ => rfl | ⟨1, _⟩ => rfl | ⟨2, _⟩ => rfl | ⟨3, _⟩ => rfl))
    exact congrArg (fun f => Finset.fold max (Ideal.ofBits .f32 0xFF800000#32) f (Finset.univ : Finset (Fin 17))) hf
  rw [h19, h18]
  unfold rmax
  exact max_eq_right ((Finset.le_fold_max _).2 (Or.inl le_rfl))

theorem v24_ix (n : Fin 8192) (h : Fin 8) (d e : Fin 17) :
    val_main_v24 (F := Ideal) X P Wq Wk (ix4 n h d e) = wexp (S X P Wq Wk n h d) e := by
  rw [val_main_v24_apply, val_main_v23_apply, val_main_v22_apply, val_main_v21_apply]
  have hi : idx_main_v21 (idx_main_v22 (ix4 n h d e)) = ix3 n h d :=
    funext fun a => by match a with | ⟨0, _⟩ => rfl | ⟨1, _⟩ => rfl | ⟨2, _⟩ => rfl
  rw [hi, v20_ix]
  rfl

theorem v28_ix (n : Fin 8192) (h : Fin 8) (d e : Fin 17) :
    val_main_v28 (F := Ideal) X P Wq Wk (ix4 n h d e)
      = Ideal.div (wexp (S X P Wq Wk n h d) e) (∑ e' : Fin 17, wexp (S X P Wq Wk n h d) e') := by
  rw [val_main_v28_apply, val_main_v27_apply, val_main_v26_apply, val_main_v25_apply, v24_ix]
  have hi : idx_main_v26 (idx_main_v27 (ix4 n h d e)) = ix3 n h d :=
    funext fun a => by match a with | ⟨0, _⟩ => rfl | ⟨1, _⟩ => rfl | ⟨2, _⟩ => rfl
  have hj : ∀ e' : Fin 17, idx_main_v25 (ix3 n h d) e' = ix4 n h d e' := fun e' =>
    funext fun a => by match a with | ⟨0, _⟩ => rfl | ⟨1, _⟩ => rfl | ⟨2, _⟩ => rfl | ⟨3, _⟩ => rfl
  rw [hi]
  simp only [hj, v24_ix]
  show Ideal.div _ (Ideal.ofBits .f32 0x00000000#32 + _) = _
  rw [Ideal.ofBits_zero_f32, zero_add]

/-- The reference's context entry (n, h, d, k). -/
theorem v29_ix (n : Fin 8192) (h : Fin 8) (d : Fin 17) (k : Fin 64) :
    val_main_v29 (F := Ideal) X P Wq Wk Wv (ix4 n h d k)
      = ctx (S X P Wq Wk n h d) (fun e => val_main_v11 (F := Ideal) X Wv (ix4 n h e k)) := by
  rw [val_main_v29_apply]
  have hl : ∀ e : Fin 17, lidx_main_v29 (ix4 n h d k) e = ix4 n h d e := fun e =>
    funext fun a => by match a with | ⟨0, _⟩ => rfl | ⟨1, _⟩ => rfl | ⟨2, _⟩ => rfl | ⟨3, _⟩ => rfl
  have hr : ∀ e : Fin 17, ridx_main_v29 (ix4 n h d k) e = ix4 n h e k := fun e =>
    funext fun a => by match a with | ⟨0, _⟩ => rfl | ⟨1, _⟩ => rfl | ⟨2, _⟩ => rfl | ⟨3, _⟩ => rfl
  simp only [hl, hr, v28_ix]
  rfl

end Cert.ReferenceIdeal.RefHead

end
-- ==== Proof.Consts.lean ====
/-
  The float literals the two programs spell differently: the kernel multiplies the scores by the literal 1/8,
  the reference by 1 / √64 computed from the literals 1 and 64. As extended reals these are the same number.
-/
import Idealize.ShloMosaic.PureOps.Ideal

noncomputable section

namespace Cert.Consts

open Idealize.ShloMosaic

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The word 0x42800000 denotes 64. -/
theorem ofBits_64 : Ideal.ofBits .f32 0x42800000#32 = ((64 : ℝ) : EReal) := by
  simp [Ideal.ofBits, Ideal.ieee, -EReal.coe_mul]; norm_num

/-- The word 0x3F800000 denotes 1. -/
theorem ofBits_one : Ideal.ofBits .f32 0x3F800000#32 = 1 := by
  simp [Ideal.ofBits, Ideal.ieee, -EReal.coe_mul]; norm_num

/-- 1 / √64 = 1/8: the square root of 64 is 8 exactly, and dividing 1 by 8 is multiplying by 1/8. -/
theorem scale_eq :
    Ideal.div (Ideal.ofBits .f32 0x3F800000#32) (Ideal.sqrt (Ideal.ofBits .f32 0x42800000#32))
      = Ideal.ofBits .f32 0x3E000000#32 := by
  have h8 : Real.sqrt 64 = 8 := by
    have : (64 : ℝ) = 8 ^ 2 := by norm_num
    rw [this, Real.sqrt_sq (by norm_num)]
  rw [ofBits_64, ofBits_one, ofBits_eighth, Ideal.sqrt_coe, if_neg (by norm_num), h8,
    Ideal.div_coe (by norm_num : (8 : ℝ) ≠ 0), one_mul]

end Cert.Consts

end
-- ==== Proof.HeadJoin.lean ====
/-
  The kernel's projections and heads are the reference's. At grid point t, block row r is position n = 64·t + r / 17
  and node d = r % 17. A projection's entry (r, c) is the reference's projection at (n, d, c): the same sum over the 512
  input channels of the same products (the kernel's weight is the reference's transposed). A head's context entry
  (r, k) is the reference's at (n, h, d, k): the same scores — 1/8 is the reference's 1/√64 — hence the same row
  maxima, exponentials, sums, weights, and the same weighted sum of the same values.
-/
import proofs.«181274_j71270687309843_2_alg».proof.Proof.Proj
import proofs.«181274_j71270687309843_2_alg».proof.Proof.KerHead
import proofs.«181274_j71270687309843_2_alg».proof.Proof.RefHead
import proofs.«181274_j71270687309843_2_alg».proof.Proof.Consts

noncomputable section

namespace Cert.KernelIdeal.HeadJoin

open Idealize.ShloMosaic Idealize.ShloMosaic.ValueIdx Cert.Softmax
open Cert.KernelIdeal (S1088x512 S1088x64 S64x17x64 S64x17x17 S1x512)

variable (X : (⟨Cert.ReferenceIdeal.S32x256x17x512, .f32⟩ : BufTy).Contents (Elt Ideal))
  (P : (⟨Cert.ReferenceIdeal.S17x17, .f32⟩ : BufTy).Contents (Elt Ideal))
  (Wq Wk Wv : (⟨Cert.ReferenceIdeal.S512x512, .f32⟩ : BufTy).Contents (Elt Ideal))
  (t : Fin 128)

/-- The block of the input at point t holds the reference's input rows: row r is (n / 256, n % 256, d). -/
def InBlock (x1 : FVec Ideal S1088x512 .f32) : Prop :=
  ∀ (r : Fin 1088) (c : Fin 512), x1 (ix2 r c)
    = X (ix4 (⟨(64 * t.val + r.val / 17) / 256, by omega⟩ : Fin 32) (⟨(64 * t.val + r.val / 17) % 256, by omega⟩ : Fin 256)
        (⟨r.val % 17, by omega⟩ : Fin 17) c)

/-- A projection computed from the block is the reference's projection of the same rows. -/
def IsProj (y : FVec Ideal S1088x512 .f32) (Y : Cert.ReferenceIdeal.S8192x17x512.Idx → EReal) : Prop :=
  ∀ (r : Fin 1088) (c : Fin 512) (n : Fin 8192) (d : Fin 17), n.val = 64 * t.val + r.val / 17 → d.val = r.val % 17 →
    y (ix2 r c) = Y (ix3 n d c)

/-- The common sum: Σ_m x(r, m) · w(m, c) is Σ_m (input at (n, d, m)) · W(c, m). -/
theorem proj_core (W : (⟨Cert.ReferenceIdeal.S512x512, .f32⟩ : BufTy).Contents (Elt Ideal))
    (x1 : FVec Ideal S1088x512 .f32) (w : Vec Ideal Cert.KernelIdeal.S512x512 .bf16)
    (hx : InBlock X t x1) (hw : ∀ j c : Fin 512, w (ix2 j c) = W (ix2 c j))
    (r : Fin 1088) (c : Fin 512) (n : Fin 8192) (d : Fin 17) (hn : n.val = 64 * t.val + r.val / 17) (hd : d.val = r.val % 17) :
    Cert.KernelIdeal.Stages.proj x1 w (ix2 r c)
      = ∑ m : Fin 512, Cert.ReferenceIdeal.Read.val_main_v2 (F := Ideal) X (ix3 n d m) * W (ix2 c m) := by
  rw [Cert.KernelIdeal.Proj.proj_apply]
  refine Finset.sum_congr rfl fun m _ => ?_
  rw [hx r m, hw m c, Cert.ReferenceIdeal.Read.val_main_v2_apply]
  have ht := t.isLt; have hr := r.isLt; have hm := m.isLt; have hnn := n.isLt; have hdd := d.isLt
  congr 1
  refine congrArg X (funext fun a => Fin.ext ?_)
  match a with
  | ⟨0, _⟩ => show (64 * t.val + r.val / 17) / 256 = ((n.val * 17 + d.val) * 512 + m.val) / 2228224; omega
  | ⟨1, _⟩ => show (64 * t.val + r.val / 17) % 256 = ((n.val * 17 + d.val) * 512 + m.val) / 8704 % 256; omega
  | ⟨2, _⟩ => show r.val % 17 = ((n.val * 17 + d.val) * 512 + m.val) / 512 % 17; omega
  | ⟨3, _⟩ => show m.val = ((n.val * 17 + d.val) * 512 + m.val) % 512; omega

theorem proj_q (x1 : FVec Ideal S1088x512 .f32) (w : Vec Ideal Cert.KernelIdeal.S512x512 .bf16)
    (hx : InBlock X t x1) (hw : ∀ j c : Fin 512, w (ix2 j c) = Wq (ix2 c j)) :
    IsProj t (Cert.KernelIdeal.Stages.proj x1 w) (Cert.ReferenceIdeal.Read.val_main_v3 (F := Ideal) X Wq) := by
  intro r c n d hn hd
  rw [proj_core X t Wq x1 w hx hw r c n d hn hd, Cert.ReferenceIdeal.Read.val_main_v3_apply]
  refine Finset.sum_congr rfl fun m _ => ?_
  have hl : Cert.ReferenceIdeal.Read.lidx_main_v3 (ix3 n d c) m = ix3 n d m :=
    funext fun a => by match a with | ⟨0, _⟩ => rfl | ⟨1, _⟩ => rfl | ⟨2, _⟩ => rfl
  have hr' : Cert.ReferenceIdeal.Read.ridx_main_v3 (ix3 n d c) m = ix2 c m :=
    funext fun a => by match a with | ⟨0, _⟩ => rfl | ⟨1, _⟩ => rfl
  rw [hl, hr']

theorem proj_k (x1 : FVec Ideal S1088x512 .f32) (w : Vec Ideal Cert.KernelIdeal.S512x512 .bf16)
    (hx : InBlock X t x1) (hw : ∀ j c : Fin 512, w (ix2 j c) = Wk (ix2 c j)) :
    IsProj t (Cert.KernelIdeal.Stages.proj x1 w) (Cert.ReferenceIdeal.Read.val_main_v6 (F := Ideal) X Wk) := by
  intro r c n d hn hd
  rw [proj_core X t Wk x1 w hx hw r c n d hn hd, Cert.ReferenceIdeal.Read.val_main_v6_apply]
  refine Finset.sum_congr rfl fun m _ => ?_
  have hl : Cert.ReferenceIdeal.Read.lidx_main_v6 (ix3 n d c) m = ix3 n d m :=
    funext fun a => by match a with | ⟨0, _⟩ => rfl | ⟨1, _⟩ => rfl | ⟨2, _⟩ => rfl
  have hr' : Cert.ReferenceIdeal.Read.ridx_main_v6 (ix3 n d c) m = ix2 c m :=
    funext fun a => by match a with | ⟨0, _⟩ => rfl | ⟨1, _⟩ => rfl
  rw [hl, hr']

theorem proj_v (x1 : FVec Ideal S1088x512 .f32) (w : Vec Ideal Cert.KernelIdeal.S512x512 .bf16)
    (hx : InBlock X t x1) (hw : ∀ j c : Fin 512, w (ix2 j c) = Wv (ix2 c j)) :
    IsProj t (Cert.KernelIdeal.Stages.proj x1 w) (Cert.ReferenceIdeal.Read.val_main_v9 (F := Ideal) X Wv) := by
  intro r c n d hn hd
  rw [proj_core X t Wv x1 w hx hw r c n d hn hd, Cert.ReferenceIdeal.Read.val_main_v9_apply]
  refine Finset.sum_congr rfl fun m _ => ?_
  have hl : Cert.ReferenceIdeal.Read.lidx_main_v9 (ix3 n d c) m = ix3 n d m :=
    funext fun a => by match a with | ⟨0, _⟩ => rfl | ⟨1, _⟩ => rfl | ⟨2, _⟩ => rfl
  have hr' : Cert.ReferenceIdeal.Read.ridx_main_v9 (ix3 n d c) m = ix2 c m :=
    funext fun a => by match a with | ⟨0, _⟩ => rfl | ⟨1, _⟩ => rfl
  rw [hl, hr']

/-- The reference's scale 1 / √64 is the kernel's literal 1/8. -/
theorem scale_eq : Cert.ReferenceIdeal.RefHead.scale = Ideal.ofBits .f32 0x3E000000#32 := Cert.Consts.scale_eq

/-- One head: context entry (r, k) of head h is the reference's context at (n, h, d, k). -/
theorem head_ref (h : Fin 8) (off : Fin 2 → Nat) (hs : S1088x512.Slices off S1088x64) (h0 : off 0 = 0) (h1 : off 1 = 64 * h.val)
    (q k v : FVec Ideal S1088x512 .f32) (p : Vec Ideal Cert.KernelIdeal.S17x17 .f32)
    (hq : IsProj t q (Cert.ReferenceIdeal.Read.val_main_v3 (F := Ideal) X Wq))
    (hk : IsProj t k (Cert.ReferenceIdeal.Read.val_main_v6 (F := Ideal) X Wk))
    (hv : IsProj t v (Cert.ReferenceIdeal.Read.val_main_v9 (F := Ideal) X Wv))
    (hp : ∀ d e : Fin 17, p (ix2 d e) = P (ix2 d e))
    (r : Fin 1088) (kk : Fin 64) (n : Fin 8192) (d : Fin 17) (hn : n.val = 64 * t.val + r.val / 17) (hd : d.val = r.val % 17) :
    Cert.KernelIdeal.Stages.head off hs q k v p (ix2 r kk)
      = Cert.ReferenceIdeal.Read.val_main_v29 (F := Ideal) X P Wq Wk Wv (ix4 n h d kk) := by
  have ht := t.isLt; have hr := r.isLt; have hh := h.isLt; have hkk := kk.isLt
  unfold Cert.KernelIdeal.Stages.head
  rw [Cert.KernelIdeal.KerHead.attend_apply _ _ r kk (⟨r.val / 17, by omega⟩ : Fin 64) d rfl hd,
    Cert.ReferenceIdeal.RefHead.v29_ix]
  have hband : ∀ (y : FVec Ideal S1088x512 .f32) (Y : Cert.ReferenceIdeal.S8192x17x512.Idx → EReal), IsProj t y Y →
      ∀ (e : Fin 17) (k' : Fin 64) (c : Fin 512), c.val = 64 * h.val + k'.val →
      Cert.KernelIdeal.Stages.band off hs y (ix3 (⟨r.val / 17, by omega⟩ : Fin 64) e k') = Y (ix3 n e c) := by
    intro y Y hy e k' c hc
    have he := e.isLt
    rw [Cert.KernelIdeal.Ops.band_apply off hs (64 * h.val) h0 h1 y (⟨r.val / 17, by omega⟩ : Fin 64) e k'
      (⟨17 * (r.val / 17) + e.val, by omega⟩ : Fin 1088) c rfl hc]
    exact hy _ c n e (by show n.val = 64 * t.val + (17 * (r.val / 17) + e.val) / 17; omega)
      (by show e.val = (17 * (r.val / 17) + e.val) % 17; omega)
  have hS : (fun e => Cert.KernelIdeal.Stages.scores (Cert.KernelIdeal.Stages.band off hs q) (Cert.KernelIdeal.Stages.band off hs k) p
      (ix3 (⟨r.val / 17, by omega⟩ : Fin 64) d e)) = Cert.ReferenceIdeal.RefHead.S X P Wq Wk n h d := by
    funext e
    unfold Cert.ReferenceIdeal.RefHead.S
    rw [Cert.KernelIdeal.KerHead.scores_apply, Cert.ReferenceIdeal.RefHead.v17_ix, scale_eq, hp d e]
    congr 2
    refine Finset.sum_congr rfl fun k' _ => ?_
    have hk' := k'.isLt
    rw [hband q _ hq d k' (⟨64 * h.val + k'.val, by omega⟩ : Fin 512) rfl,
      hband k _ hk e k' (⟨64 * h.val + k'.val, by omega⟩ : Fin 512) rfl,
      Cert.ReferenceIdeal.RefHead.v5_ix X Wq n h d k' (⟨64 * h.val + k'.val, by omega⟩ : Fin 512) rfl,
      Cert.ReferenceIdeal.RefHead.v8_ix X Wk n h e k' (⟨64 * h.val + k'.val, by omega⟩ : Fin 512) rfl]
  have hV : (fun e => Cert.KernelIdeal.Stages.band off hs v (ix3 (⟨r.val / 17, by omega⟩ : Fin 64) e kk))
      = fun e => Cert.ReferenceIdeal.Read.val_main_v11 (F := Ideal) X Wv (ix4 n h e kk) := by
    funext e
    rw [hband v _ hv e kk (⟨64 * h.val + kk.val, by omega⟩ : Fin 512) rfl,
      Cert.ReferenceIdeal.RefHead.v11_ix X Wv n h e kk (⟨64 * h.val + kk.val, by omega⟩ : Fin 512) rfl]
  rw [hS, hV]

end Cert.KernelIdeal.HeadJoin

end
-- ==== Proof.FinishSpec.lean ====
/-
  One row's layer normalisation as a function of the row: what the block's last stage computes on each of its 1088 rows
  and what the reference computes on each (batch, position, node) row of its [32, 256, 17, 512] array. The mean is the
  row's sum divided by the single-precision word for 512; the variance is the mean of the squared centred entries; the
  small constant is the word both programs write. Nothing here is evaluated: both sides apply the same operations to the
  same words.
-/
import Idealize.ShloMosaic.PureOps.Ideal

noncomputable section

open scoped BigOperators

namespace Cert.KernelIdeal.Finish

open Idealize.ShloMosaic

/-- The mean of a row of 512 entries: their sum divided by the single-precision word for 512. -/
def rowMeanOf (f : Fin 512 → EReal) : EReal :=
  Ideal.div (∑ c : Fin 512, f c) (Ideal.ofBits .f32 0x44000000#32)

/-- A row centred, divided by the root of (the mean of the squared centred entries plus the small constant), scaled and
    shifted channel by channel. -/
def rowNorm (f gm bt : Fin 512 → EReal) (c : Fin 512) : EReal :=
  (f c - rowMeanOf f)
      * Ideal.rsqrt (rowMeanOf (fun c' => (f c' - rowMeanOf f) * (f c' - rowMeanOf f)) + Ideal.ofBits .f32 0x3727C5AC#32)
      * gm c + bt c

end Cert.KernelIdeal.Finish

end
-- ==== Proof.FinishKernel.lean ====
/-
  The block's last stage read at an index. The eight heads' contexts stand side by side as 64-column bands; the output
  projection's entry (r, c) is the sum over j of the concatenated row at j times the (already transposed) weight at (j, c);
  the bias row and the residual are added; then each row is normalised: `normed y g b` at (r, c) is `rowNorm` of row r of y.
  Every lemma is over variables of the literal block shapes, with indices written by coordinates.
-/
import proofs.«181274_j71270687309843_2_alg».proof.Proof.Stages
import proofs.«181274_j71270687309843_2_alg».proof.Proof.FinishSpec
import Idealize.ShloMosaic.Lib.ValueLayout
import Idealize.ShloMosaic.PureOps.Ideal.Laws

set_option maxRecDepth 16384

noncomputable section

open scoped BigOperators

namespace Cert.KernelIdeal.Finish

open Idealize.ShloMosaic Idealize.ShloMosaic.ValueIdx Idealize.SL.Sem Cert.KernelIdeal Cert.KernelIdeal.Gen

/-! ## Layout operations of the last stage, read at an index -/

/-- A [1088] vector cast to a [1088, 1] column reads, at (r, u), the vector at r. -/
theorem cast_col_apply {α : Type} (v : S1088.Idx → α) (h : S1088.ShapeCasts S1088x1) (r : Fin 1088) (u : Fin 1) :
    shapeCast S1088x1 v h (ix2 r u) = v (ix1 r) :=
  shapeCast_apply v h _ _ (by
    have hu : u.val = 0 := by omega
    rw [Shape.rowMajor_val_one, Shape.rowMajor_val_two]
    show r.val = r.val * 1 + u.val
    omega)

/-- A [1088, 1] column broadcast over 512 lanes reads, at (r, c), the column at (r, 0). -/
theorem bcast_col_apply {α : Type} (v : S1088x1.Idx → α) (h : S1088x1.Broadcasts S1088x512) (r : Fin 1088) (c : Fin 512) :
    broadcastTo S1088x512 v h (ix2 r c) = v (ix2 r (0 : Fin 1)) := by
  refine broadcastTo_apply v h (ix2 r c) (ix2 r (0 : Fin 1)) fun ax => ?_
  match ax with
  | ⟨0, _⟩ =>
    show r.val = if (1088 : Nat) = 1 then 0 else r.val
    rw [if_neg (by decide)]
  | ⟨1, _⟩ =>
    show 0 = if (1 : Nat) = 1 then 0 else c.val
    rw [if_pos rfl]

/-- A [1, 512] row broadcast over 1088 rows reads, at (r, c), the row at (0, c); the identity cast in front of it
    changes nothing. -/
theorem bcast_row_apply (v : Vec Ideal S1x512 .f32) (r : Fin 1088) (c : Fin 512) :
    broadcastTo S1088x512 (shapeCast S1x512 v shapeCasts_S1x512_S1x512) broadcasts_S1x512_S1088x512 (ix2 r c)
      = v (ix2 (0 : Fin 1) c) := by
  rw [broadcastTo_1b_ab_apply, shapeCast_self]

/-- The lane sum of a [1088, 512] block at row r is the sum of the row. -/
theorem lane_sum_apply (y : FVec Ideal S1088x512 .f32) (r : Fin 1088) :
    multiReduction .add [1] S1088 y 0x00000000#32 reduces_S1088x512_S1088 (.inl rfl) rfl (ix1 r)
      = ∑ c : Fin 512, y (ix2 r c) := by
  refine (Ideal.multiReduction_add_single y 0x00000000#32 reduces_S1088x512_S1088 (.inl rfl) rfl (ix1 r)).trans ?_
  refine Finset.sum_congr rfl fun c _ => congrArg y (funext fun a => Fin.ext ?_)
  match a with
  | ⟨0, _⟩ => rfl
  | ⟨1, _⟩ => rfl

/-! ## The output projection read at an index -/

/-- The dimension numbers of the block's three dense products: rows by a weight whose first axis is contracted. -/
abbrev DD : DotDims S1088x512 S512x512 S1088x512 := dot_S1088x512_S512x512_S1088x512_1_0_0_1_n_n

theorem mm_lhs_0 (i : S1088x512.Idx) (q : DD.contr.Idx) : (DD.lhsIdx i q 0).val = (i 0).val := by
  unfold DotDims.lhsIdx
  rw [dif_neg (show ¬(0 : Fin S1088x512.rank) ∈ DD.lhsBatch by decide),
    dif_pos (show (0 : Fin S1088x512.rank) ∈ DD.lhsNonContracting by decide)]
  rfl
theorem mm_lhs_1 (i : S1088x512.Idx) (q : DD.contr.Idx) : (DD.lhsIdx i q 1).val = (q ⟨0, by decide⟩).val :=
  DD.lhsIdx_val_of_single rfl i q
theorem mm_rhs_0 (i : S1088x512.Idx) (q : DD.contr.Idx) : (DD.rhsIdx i q 0).val = (q ⟨0, by decide⟩).val :=
  DD.rhsIdx_val_of_single rfl i q
theorem mm_rhs_1 (i : S1088x512.Idx) (q : DD.contr.Idx) : (DD.rhsIdx i q 1).val = (i 1).val := by
  unfold DotDims.rhsIdx
  rw [dif_neg (show ¬(1 : Fin S512x512.rank) ∈ DD.rhsBatch by decide),
    dif_pos (show (1 : Fin S512x512.rank) ∈ DD.rhsNonContracting by decide)]
  rfl

/-- Rows times a weight into a zero accumulator: entry (r, c) is the sum over k of lhs(r, k) · rhs(k, c). -/
theorem mm_apply {φ₁ φ₂ : FTy} (lhs : FVec Ideal S1088x512 φ₁) (rhs : FVec Ideal S512x512 φ₂) (r : Fin 1088) (c : Fin 512) :
    matmul DD none lhs rhs (constant (F := Ideal) S1088x512 .f32 0x00000000#32) (ix2 r c)
      = ∑ k : Fin 512, lhs (ix2 r k) * rhs (ix2 k c) := by
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 r c) ((contrEquiv1 DD 512 rfl rfl).symm k) = ix2 r k := funext fun a => Fin.ext (by
    match a with
    | ⟨0, _⟩ => exact mm_lhs_0 _ _
    | ⟨1, _⟩ => exact (mm_lhs_1 _ _).trans hk)
  have er : DD.rhsIdx (ix2 r c) ((contrEquiv1 DD 512 rfl rfl).symm k) = ix2 k c := funext fun a => Fin.ext (by
    match a with
    | ⟨0, _⟩ => exact (mm_rhs_0 _ _).trans hk
    | ⟨1, _⟩ => exact mm_rhs_1 _ _)
  rw [el, er]

/-! ## The eight heads' contexts side by side -/

/-- The concatenation of eight 64-column bands reads, at (r, j), band j / 64 at (r, j % 64): stated against any table V
    the bands are known to hold at row r. -/
theorem concat8_apply (c0 c1 c2 c3 c4 c5 c6 c7 : FVec Ideal S1088x64 .f32) (r : Fin 1088) (V : Fin 8 → Fin 64 → EReal)
    (h0 : ∀ k : Fin 64, c0 (ix2 r k) = V 0 k) (h1 : ∀ k : Fin 64, c1 (ix2 r k) = V 1 k)
    (h2 : ∀ k : Fin 64, c2 (ix2 r k) = V 2 k) (h3 : ∀ k : Fin 64, c3 (ix2 r k) = V 3 k)
    (h4 : ∀ k : Fin 64, c4 (ix2 r k) = V 4 k) (h5 : ∀ k : Fin 64, c5 (ix2 r k) = V 5 k)
    (h6 : ∀ k : Fin 64, c6 (ix2 r k) = V 6 k) (h7 : ∀ k : Fin 64, c7 (ix2 r k) = V 7 k) (j : Fin 512) :
    concatenate S1088x512 1 [⟨S1088x64, c0⟩, ⟨S1088x64, c1⟩, ⟨S1088x64, c2⟩, ⟨S1088x64, c3⟩, ⟨S1088x64, c4⟩, ⟨S1088x64, c5⟩, ⟨S1088x64, c6⟩, ⟨S1088x64, c7⟩]
        concatenates_S1088x64_S1088x64_S1088x64_S1088x64_S1088x64_S1088x64_S1088x64_S1088x64_S1088x512_d1 (ix2 r j)
      = V ⟨j.val / 64, by have := j.isLt; omega⟩ ⟨j.val % 64, Nat.mod_lt _ (by decide)⟩ := by
  have hj := j.isLt
  have hi : ∀ b : Fin S1088x64.rank, b.cast (rfl : S1088x64.rank = S1088x512.rank) ≠ (1 : Fin S1088x512.rank) →
      ((ix2 r (⟨j.val % 64, Nat.mod_lt _ (by decide)⟩ : Fin 64)) b).val = ((ix2 r j) (b.cast rfl)).val := fun b =>
    match b with
    | ⟨0, _⟩ => fun _ => rfl
    | ⟨1, _⟩ => fun h => absurd rfl h
  obtain ⟨q, hq⟩ : ∃ q : Fin 8, q.val = j.val / 64 := ⟨⟨j.val / 64, by omega⟩, rfl⟩
  have hV : V ⟨j.val / 64, by omega⟩ = V q := congrArg V (Fin.ext hq.symm)
  rw [hV]
  match q, hq with
  | ⟨0, _⟩, hq =>
    refine (concatenate_apply_piece 1 _ _ (ix2 r j) 0 (by show (0 : Nat) < 8; omega) S1088x64 c0 rfl rfl 0 rfl (ix2 r ⟨j.val % 64, Nat.mod_lt _ (by decide)⟩) hi ?_).trans (h0 _)
    show 0 + j.val % 64 = j.val
    have : j.val / 64 = 0 := hq.symm
    omega
  | ⟨1, _⟩, hq =>
    refine (concatenate_apply_piece 1 _ _ (ix2 r j) 1 (by show (1 : Nat) < 8; omega) S1088x64 c1 rfl rfl 64 rfl (ix2 r ⟨j.val % 64, Nat.mod_lt _ (by decide)⟩) hi ?_).trans (h1 _)
    show 64 + j.val % 64 = j.val
    have : j.val / 64 = 1 := hq.symm
    omega
  | ⟨2, _⟩, hq =>
    refine (concatenate_apply_piece 1 _ _ (ix2 r j) 2 (by show (2 : Nat) < 8; omega) S1088x64 c2 rfl rfl 128 rfl (ix2 r ⟨j.val % 64, Nat.mod_lt _ (by decide)⟩) hi ?_).trans (h2 _)
    show 128 + j.val % 64 = j.val
    have : j.val / 64 = 2 := hq.symm
    omega
  | ⟨3, _⟩, hq =>
    refine (concatenate_apply_piece 1 _ _ (ix2 r j) 3 (by show (3 : Nat) < 8; omega) S1088x64 c3 rfl rfl 192 rfl (ix2 r ⟨j.val % 64, Nat.mod_lt _ (by decide)⟩) hi ?_).trans (h3 _)
    show 192 + j.val % 64 = j.val
    have : j.val / 64 = 3 := hq.symm
    omega
  | ⟨4, _⟩, hq =>
    refine (concatenate_apply_piece 1 _ _ (ix2 r j) 4 (by show (4 : Nat) < 8; omega) S1088x64 c4 rfl rfl 256 rfl (ix2 r ⟨j.val % 64, Nat.mod_lt _ (by decide)⟩) hi ?_).trans (h4 _)
    show 256 + j.val % 64 = j.val
    have : j.val / 64 = 4 := hq.symm
    omega
  | ⟨5, _⟩, hq =>
    refine (concatenate_apply_piece 1 _ _ (ix2 r j) 5 (by show (5 : Nat) < 8; omega) S1088x64 c5 rfl rfl 320 rfl (ix2 r ⟨j.val % 64, Nat.mod_lt _ (by decide)⟩) hi ?_).trans (h5 _)
    show 320 + j.val % 64 = j.val
    have : j.val / 64 = 5 := hq.symm
    omega
  | ⟨6, _⟩, hq =>
    refine (concatenate_apply_piece 1 _ _ (ix2 r j) 6 (by show (6 : Nat) < 8; omega) S1088x64 c6 rfl rfl 384 rfl (ix2 r ⟨j.val % 64, Nat.mod_lt _ (by decide)⟩) hi ?_).trans (h6 _)
    show 384 + j.val % 64 = j.val
    have : j.val / 64 = 6 := hq.symm
    omega
  | ⟨7, _⟩, hq =>
    refine (concatenate_apply_piece 1 _ _ (ix2 r j) 7 (by show (7 : Nat) < 8; omega) S1088x64 c7 rfl rfl 448 rfl (ix2 r ⟨j.val % 64, Nat.mod_lt _ (by decide)⟩) hi ?_).trans (h7 _)
    show 448 + j.val % 64 = j.val
    have : j.val / 64 = 7 := hq.symm
    omega

/-! ## The stage's functions read at an index -/

/-- A row's mean, read at (r, u), is the mean of row r. -/
theorem rowMean_apply (y : FVec Ideal S1088x512 .f32) (r : Fin 1088) (u : Fin 1) :
    Stages.rowMean y (ix2 r u) = rowMeanOf (fun c => y (ix2 r c)) := by
  unfold Stages.rowMean rowMeanOf
  rw [divf_apply, broadcast_apply, cast_col_apply, lane_sum_apply]
  rfl

/-- A centred block at (r, c): the entry less its row's mean. -/
theorem centred_apply (y : FVec Ideal S1088x512 .f32) (r : Fin 1088) (c : Fin 512) :
    Stages.centred y (ix2 r c) = y (ix2 r c) - rowMeanOf (fun c' => y (ix2 r c')) := by
  unfold Stages.centred
  rw [subf_apply, bcast_col_apply, rowMean_apply]

/-- The normalised block at (r, c) is the row normalisation of row r at c. -/
theorem normed_apply (y : FVec Ideal S1088x512 .f32) (g b : Vec Ideal S1x512 .f32) (r : Fin 1088) (c : Fin 512) :
    Stages.normed y g b (ix2 r c)
      = rowNorm (fun c' => y (ix2 r c')) (fun c' => g (ix2 (0 : Fin 1) c')) (fun c' => b (ix2 (0 : Fin 1) c')) c := by
  unfold Stages.normed rowNorm
  rw [addf_apply, mulf_apply, mulf_apply, bcast_row_apply, bcast_row_apply, bcast_col_apply, centred_apply]
  have hr : (rsqrt (addf (Stages.rowMean (mulf (Stages.centred y) (Stages.centred y)))
        (broadcast S1088x1 (Scalar.ofBits (F := Ideal) .f32 0x3727C5AC#32)))) (ix2 r (0 : Fin 1))
      = Ideal.rsqrt (rowMeanOf (fun c' => (y (ix2 r c') - rowMeanOf (fun c'' => y (ix2 r c''))) * (y (ix2 r c') - rowMeanOf (fun c'' => y (ix2 r c''))))
          + Ideal.ofBits .f32 0x3727C5AC#32) := by
    show Ideal.rsqrt (Stages.rowMean (mulf (Stages.centred y) (Stages.centred y)) (ix2 r (0 : Fin 1)) + Ideal.ofBits .f32 0x3727C5AC#32) = _
    rw [rowMean_apply]
    refine congrArg (fun z => Ideal.rsqrt (rowMeanOf z + _)) (funext fun c' => ?_)
    rw [mulf_apply, centred_apply]
  rw [hr]

/-- The block before normalisation at (r, c): the contexts' row times the output weight's column, plus the bias, plus
    the residual; the contexts' row given as any table V the eight bands are known to hold at row r. -/
theorem preNorm_apply (x : FVec Ideal S1088x512 .f32) (c0 c1 c2 c3 c4 c5 c6 c7 : FVec Ideal S1088x64 .f32)
    (wo : Vec Ideal S512x512 .bf16) (bo : Vec Ideal S1x512 .f32) (r : Fin 1088) (V : Fin 8 → Fin 64 → EReal)
    (h0 : ∀ k : Fin 64, c0 (ix2 r k) = V 0 k) (h1 : ∀ k : Fin 64, c1 (ix2 r k) = V 1 k)
    (h2 : ∀ k : Fin 64, c2 (ix2 r k) = V 2 k) (h3 : ∀ k : Fin 64, c3 (ix2 r k) = V 3 k)
    (h4 : ∀ k : Fin 64, c4 (ix2 r k) = V 4 k) (h5 : ∀ k : Fin 64, c5 (ix2 r k) = V 5 k)
    (h6 : ∀ k : Fin 64, c6 (ix2 r k) = V 6 k) (h7 : ∀ k : Fin 64, c7 (ix2 r k) = V 7 k) (c : Fin 512) :
    Stages.preNorm x c0 c1 c2 c3 c4 c5 c6 c7 wo bo (ix2 r c)
      = (∑ j : Fin 512, V ⟨j.val / 64, by have := j.isLt; omega⟩ ⟨j.val % 64, Nat.mod_lt _ (by decide)⟩ * wo (ix2 j c))
          + bo (ix2 (0 : Fin 1) c) + x (ix2 r c) := by
  unfold Stages.preNorm
  rw [addf_apply, addf_apply, bcast_row_apply]
  refine congrArg (· + bo (ix2 (0 : Fin 1) c) + x (ix2 r c)) ?_
  refine (mm_apply _ _ r c).trans (Finset.sum_congr rfl fun j _ => ?_)
  rw [truncf_apply, concat8_apply c0 c1 c2 c3 c4 c5 c6 c7 r V h0 h1 h2 h3 h4 h5 h6 h7 j, shapeCast_self]

end Cert.KernelIdeal.Finish

end
-- ==== Proof.FinishRef.lean ====
/-
  The reference's last operations read at an index. Its contexts laid out [8192, 17, 512] are the [8192, 8, 17, 64]
  contexts with head and node exchanged and the last two axes merged; the output projection contracts them with the
  weight's second axis; bias and input are added in the [32, 256, 17, 512] layout (position n = 256 · a + b); then each
  (a, b, d) row is normalised: the result at (a, b, d, c) is `rowNorm` of that row of the residual sum. The host's sums
  start from the zero word, which is the extended real 0.
-/
import proofs.«181274_j71270687309843_2_alg».proof.Proof.Gen.ReferenceIdeal.Read
import proofs.«181274_j71270687309843_2_alg».proof.Proof.FinishSpec
import Idealize.ShloMosaic.Lib.ValueLayout
import Idealize.ShloMosaic.PureOps.Ideal.Laws

set_option maxRecDepth 16384

noncomputable section

open scoped BigOperators

namespace Cert.KernelIdeal.Finish

open Idealize.ShloMosaic Idealize.ShloMosaic.ValueIdx Idealize.SL.Sem Cert.ReferenceIdeal Cert.ReferenceIdeal.Gen Cert.ReferenceIdeal.Read

variable (X : (⟨S32x256x17x512, .f32⟩ : BufTy).Contents (Elt Ideal)) (P : (⟨S17x17, .f32⟩ : BufTy).Contents (Elt Ideal))
  (Wq Wk Wv Wo : (⟨S512x512, .f32⟩ : BufTy).Contents (Elt Ideal)) (Bo Gm Bt : (⟨S512, .f32⟩ : BufTy).Contents (Elt Ideal))

/-! ## The reference's contexts, projection, bias and residual at an index -/

/-- The contexts laid out [8192, 17, 512] read, at (n, d, j), head j / 64 of the [8192, 8, 17, 64] contexts at (n, d, j % 64). -/
theorem ref_ctx_apply (n : Fin 8192) (d : Fin 17) (j : Fin 512) :
    val_main_v31 (F := Ideal) X P Wq Wk Wv (ix3 n d j)
      = val_main_v29 (F := Ideal) X P Wq Wk Wv
          (ix4 n (⟨j.val / 64, by have := j.isLt; omega⟩ : Fin 8) d (⟨j.val % 64, Nat.mod_lt _ (by decide)⟩ : Fin 64)) := by
  rw [val_main_v31_apply, val_main_v30_apply]
  refine congrArg _ (funext fun a => Fin.ext ?_)
  have hn := n.isLt
  have hd := d.isLt
  have hj := j.isLt
  match a with
  | ⟨0, _⟩ =>
    show ((n.val * 17 + d.val) * 512 + j.val) / 8704 = n.val
    omega
  | ⟨1, _⟩ =>
    show ((n.val * 17 + d.val) * 512 + j.val) / 64 % 8 = j.val / 64
    omega
  | ⟨2, _⟩ =>
    show ((n.val * 17 + d.val) * 512 + j.val) / 512 % 17 = d.val
    omega
  | ⟨3, _⟩ =>
    show ((n.val * 17 + d.val) * 512 + j.val) % 64 = j.val % 64
    omega

/-- The reference's residual sum at (a, b, d, c), position n = 256 · a + b: the contexts' row times the output weight's
    row c, plus the bias, plus the input. -/
theorem ref_preNorm_apply (a : Fin 32) (b : Fin 256) (d : Fin 17) (c : Fin 512) (n : Fin 8192) (hn : n.val = a.val * 256 + b.val) :
    val_main_v37 (F := Ideal) X P Wq Wk Wv Wo Bo (ix4 a b d c)
      = (∑ j : Fin 512, val_main_v29 (F := Ideal) X P Wq Wk Wv
            (ix4 n (⟨j.val / 64, by have := j.isLt; omega⟩ : Fin 8) d (⟨j.val % 64, Nat.mod_lt _ (by decide)⟩ : Fin 64)) * Wo (ix2 c j))
          + Bo (ix1 c) + X (ix4 a b d c) := by
  have e36 : idx_main_v36 (ix4 a b d c) = ix3 n d c := funext fun ax => Fin.ext (by
    have ha := a.isLt
    have hb := b.isLt
    have hd := d.isLt
    have hc := c.isLt
    match ax with
    | ⟨0, _⟩ =>
      show (((a.val * 256 + b.val) * 17 + d.val) * 512 + c.val) / 8704 = n.val
      omega
    | ⟨1, _⟩ =>
      show (((a.val * 256 + b.val) * 17 + d.val) * 512 + c.val) / 512 % 17 = d.val
      omega
    | ⟨2, _⟩ =>
      show (((a.val * 256 + b.val) * 17 + d.val) * 512 + c.val) % 512 = c.val
      omega)
  rw [val_main_v37_apply, val_main_v36_apply, e36, val_main_v35_apply, val_main_v32_apply, val_main_v34_apply, val_main_v33_apply]
  show (∑ k : Fin 512, val_main_v31 (F := Ideal) X P Wq Wk Wv (lidx_main_v32 (ix3 n d c) k) * Wo (ridx_main_v32 (ix3 n d c) k))
      + Bo (idx_main_v33 (idx_main_v34 (ix3 n d c))) + X (ix4 a b d c) = _
  refine congrArg₂ (· + ·) (congrArg₂ (· + ·) (Finset.sum_congr rfl fun j _ => ?_) ?_) rfl
  · have el : lidx_main_v32 (ix3 n d c) j = ix3 n d j := funext fun ax => Fin.ext (by
      match ax with
      | ⟨0, _⟩ => rfl
      | ⟨1, _⟩ => rfl
      | ⟨2, _⟩ => rfl)
    have er : ridx_main_v32 (ix3 n d c) j = ix2 c j := funext fun ax => Fin.ext (by
      match ax with
      | ⟨0, _⟩ => rfl
      | ⟨1, _⟩ => rfl)
    rw [el, er, ref_ctx_apply]
  · exact congrArg Bo (funext fun ax => Fin.ext (by
      match ax with
      | ⟨0, _⟩ => rfl))

/-! ## The reference's normalisation at an index -/

/-- The reference's row mean at (a, b, d, u) is the mean of its residual sum's row (a, b, d). -/
theorem ref_mean_apply (a : Fin 32) (b : Fin 256) (d : Fin 17) (u : Fin 1) :
    val_main_v41 (F := Ideal) X P Wq Wk Wv Wo Bo (ix4 a b d u)
      = rowMeanOf (fun c => val_main_v37 (F := Ideal) X P Wq Wk Wv Wo Bo (ix4 a b d c)) := by
  rw [val_main_v41_apply, val_main_v39_apply, val_main_v38_apply, val_main_v40_apply, val_main_cst_5_apply, val_main_cst_4_apply]
  show Ideal.div (Ideal.ofBits .f32 0x00000000#32 + ∑ k : Fin 512, val_main_v37 (F := Ideal) X P Wq Wk Wv Wo Bo
      (idx_main_v38 (idx_main_v39 (ix4 a b d u)) k)) (Ideal.ofBits .f32 0x44000000#32) = _
  rw [Ideal.ofBits_zero_f32, zero_add]
  unfold rowMeanOf
  refine congrArg (Ideal.div · _) (Finset.sum_congr rfl fun c _ => congrArg _ (funext fun ax => Fin.ext ?_))
  match ax with
  | ⟨0, _⟩ => rfl
  | ⟨1, _⟩ => rfl
  | ⟨2, _⟩ => rfl
  | ⟨3, _⟩ => rfl

/-- The reference's centred entry at (a, b, d, c) (its first copy, the one that is squared). -/
theorem ref_centred_apply (a : Fin 32) (b : Fin 256) (d : Fin 17) (c : Fin 512) :
    val_main_v43 (F := Ideal) X P Wq Wk Wv Wo Bo (ix4 a b d c)
      = val_main_v37 (F := Ideal) X P Wq Wk Wv Wo Bo (ix4 a b d c)
          - rowMeanOf (fun c' => val_main_v37 (F := Ideal) X P Wq Wk Wv Wo Bo (ix4 a b d c')) := by
  rw [val_main_v43_apply, val_main_v42_apply]
  have e : idx_main_v42 (ix4 a b d c) = ix4 a b d (0 : Fin 1) := funext fun ax => Fin.ext (by
    match ax with
    | ⟨0, _⟩ => rfl
    | ⟨1, _⟩ => rfl
    | ⟨2, _⟩ => rfl
    | ⟨3, _⟩ => rfl)
  rw [e, ref_mean_apply]
  rfl

/-- The reference's centred entry at (a, b, d, c) (its second copy, the one that is scaled). -/
theorem ref_centred2_apply (a : Fin 32) (b : Fin 256) (d : Fin 17) (c : Fin 512) :
    val_main_v50 (F := Ideal) X P Wq Wk Wv Wo Bo (ix4 a b d c)
      = val_main_v37 (F := Ideal) X P Wq Wk Wv Wo Bo (ix4 a b d c)
          - rowMeanOf (fun c' => val_main_v37 (F := Ideal) X P Wq Wk Wv Wo Bo (ix4 a b d c')) := by
  rw [val_main_v50_apply, val_main_v49_apply]
  have e : idx_main_v49 (ix4 a b d c) = ix4 a b d (0 : Fin 1) := funext fun ax => Fin.ext (by
    match ax with
    | ⟨0, _⟩ => rfl
    | ⟨1, _⟩ => rfl
    | ⟨2, _⟩ => rfl
    | ⟨3, _⟩ => rfl)
  rw [e, ref_mean_apply]
  rfl

/-- The reference's row variance at (a, b, d, u): the mean of the squared centred entries of row (a, b, d). -/
theorem ref_var_apply (a : Fin 32) (b : Fin 256) (d : Fin 17) (u : Fin 1) :
    val_main_v48 (F := Ideal) X P Wq Wk Wv Wo Bo (ix4 a b d u)
      = rowMeanOf (fun c =>
          (val_main_v37 (F := Ideal) X P Wq Wk Wv Wo Bo (ix4 a b d c)
              - rowMeanOf (fun c' => val_main_v37 (F := Ideal) X P Wq Wk Wv Wo Bo (ix4 a b d c')))
            * (val_main_v37 (F := Ideal) X P Wq Wk Wv Wo Bo (ix4 a b d c)
              - rowMeanOf (fun c' => val_main_v37 (F := Ideal) X P Wq Wk Wv Wo Bo (ix4 a b d c')))) := by
  rw [val_main_v48_apply, val_main_v46_apply, val_main_v45_apply, val_main_v47_apply, val_main_cst_7_apply, val_main_cst_6_apply]
  show Ideal.div (Ideal.ofBits .f32 0x00000000#32 + ∑ k : Fin 512, val_main_v44 (F := Ideal) X P Wq Wk Wv Wo Bo
      (idx_main_v45 (idx_main_v46 (ix4 a b d u)) k)) (Ideal.ofBits .f32 0x44000000#32) = _
  rw [Ideal.ofBits_zero_f32, zero_add]
  unfold rowMeanOf
  refine congrArg (Ideal.div · _) (Finset.sum_congr rfl fun c _ => ?_)
  have e : idx_main_v45 (idx_main_v46 (ix4 a b d u)) c = ix4 a b d c := funext fun ax => Fin.ext (by
    match ax with
    | ⟨0, _⟩ => rfl
    | ⟨1, _⟩ => rfl
    | ⟨2, _⟩ => rfl
    | ⟨3, _⟩ => rfl)
  rw [e, val_main_v44_apply, ref_centred_apply]
  rfl

/-- The reference's result at (a, b, d, c) is the row normalisation of its residual sum's row (a, b, d) at c. -/
theorem ref_normed_apply (a : Fin 32) (b : Fin 256) (d : Fin 17) (c : Fin 512) :
    val_main_v61 (F := Ideal) X P Wq Wk Wv Wo Bo Gm Bt (ix4 a b d c)
      = rowNorm (fun c' => val_main_v37 (F := Ideal) X P Wq Wk Wv Wo Bo (ix4 a b d c'))
          (fun c' => Gm (ix1 c')) (fun c' => Bt (ix1 c')) c := by
  rw [val_main_v61_apply, val_main_v58_apply, val_main_v55_apply, val_main_v60_apply, val_main_v59_apply, val_main_v57_apply,
    val_main_v56_apply, val_main_v54_apply, val_main_v53_apply, val_main_v52_apply, val_main_v51_apply, val_main_cst_8_apply,
    ref_centred2_apply]
  have e54 : idx_main_v54 (ix4 a b d c) = ix4 a b d (0 : Fin 1) := funext fun ax => Fin.ext (by
    match ax with
    | ⟨0, _⟩ => rfl
    | ⟨1, _⟩ => rfl
    | ⟨2, _⟩ => rfl
    | ⟨3, _⟩ => rfl)
  have eg : idx_main_v56 (idx_main_v57 (ix4 a b d c)) = ix1 c := funext fun ax => Fin.ext (by
    match ax with
    | ⟨0, _⟩ => rfl)
  have eb : idx_main_v59 (idx_main_v60 (ix4 a b d c)) = ix1 c := funext fun ax => Fin.ext (by
    match ax with
    | ⟨0, _⟩ => rfl)
  rw [e54, eg, eb, ref_var_apply]
  rfl

end Cert.KernelIdeal.Finish

end
-- ==== Proof.Finish.lean ====
/-
  The block's last stage against the reference, entry by entry. At grid point t the block's row r is position
  n = 64 · t + r / 17 (of 8192) and node r % 17; in the reference's [32, 256, 17, 512] layout that row is (n / 256, n % 256, r % 17).
  Given that the loaded input block, the eight heads' contexts, the transposed output weight, the bias and the scale and
  shift rows are the reference's values at the matching indices, the normalised block at (r, c) is the reference's result
  at (n / 256, n % 256, r % 17, c): both sides apply the same row normalisation to the same row, and the two rows agree
  entry by entry because the projection's sums run over the same 512 products in the same order.
-/
import proofs.«181274_j71270687309843_2_alg».proof.Proof.FinishKernel
import proofs.«181274_j71270687309843_2_alg».proof.Proof.FinishRef

set_option maxRecDepth 16384

noncomputable section

open scoped BigOperators

namespace Cert.KernelIdeal.Finish

open Idealize.ShloMosaic Idealize.ShloMosaic.ValueIdx Idealize.SL.Sem Cert.KernelIdeal Cert.KernelIdeal.Gen

/-- The position (of 8192) of block row r at grid point t. -/
abbrev posN (t : Fin 128) (r : Fin 1088) : Fin 8192 :=
  ⟨64 * t.val + r.val / 17, by have := t.isLt; have := r.isLt; omega⟩
/-- Its batch coordinate, … -/
abbrev posA (t : Fin 128) (r : Fin 1088) : Fin 32 :=
  ⟨(64 * t.val + r.val / 17) / 256, by have := t.isLt; have := r.isLt; omega⟩
/-- … its coordinate inside the batch, … -/
abbrev posB (t : Fin 128) (r : Fin 1088) : Fin 256 :=
  ⟨(64 * t.val + r.val / 17) % 256, Nat.mod_lt _ (by decide)⟩
/-- … and the graph node of block row r. -/
abbrev nodeD (r : Fin 1088) : Fin 17 := ⟨r.val % 17, Nat.mod_lt _ (by decide)⟩

/-- The block before normalisation is the reference's residual sum, entry by entry. -/
theorem preNorm_eq_ref
    (X : (⟨Cert.ReferenceIdeal.S32x256x17x512, .f32⟩ : BufTy).Contents (Elt Ideal))
    (P : (⟨Cert.ReferenceIdeal.S17x17, .f32⟩ : BufTy).Contents (Elt Ideal))
    (Wq Wk Wv Wo : (⟨Cert.ReferenceIdeal.S512x512, .f32⟩ : BufTy).Contents (Elt Ideal))
    (Bo : (⟨Cert.ReferenceIdeal.S512, .f32⟩ : BufTy).Contents (Elt Ideal))
    (t : Fin 128)
    (x1 : FVec Ideal S1088x512 .f32) (c0 c1 c2 c3 c4 c5 c6 c7 : FVec Ideal S1088x64 .f32)
    (wo : Vec Ideal S512x512 .bf16) (bo : Vec Ideal S1x512 .f32)
    (hx : ∀ (r : Fin 1088) (c : Fin 512), x1 (ix2 r c) = X (ix4 (posA t r) (posB t r) (nodeD r) c))
    (hc0 : ∀ (r : Fin 1088) (k : Fin 64), c0 (ix2 r k) = Cert.ReferenceIdeal.Read.val_main_v29 (F := Ideal) X P Wq Wk Wv (ix4 (posN t r) (0 : Fin 8) (nodeD r) k))
    (hc1 : ∀ (r : Fin 1088) (k : Fin 64), c1 (ix2 r k) = Cert.ReferenceIdeal.Read.val_main_v29 (F := Ideal) X P Wq Wk Wv (ix4 (posN t r) (1 : Fin 8) (nodeD r) k))
    (hc2 : ∀ (r : Fin 1088) (k : Fin 64), c2 (ix2 r k) = Cert.ReferenceIdeal.Read.val_main_v29 (F := Ideal) X P Wq Wk Wv (ix4 (posN t r) (2 : Fin 8) (nodeD r) k))
    (hc3 : ∀ (r : Fin 1088) (k : Fin 64), c3 (ix2 r k) = Cert.ReferenceIdeal.Read.val_main_v29 (F := Ideal) X P Wq Wk Wv (ix4 (posN t r) (3 : Fin 8) (nodeD r) k))
    (hc4 : ∀ (r : Fin 1088) (k : Fin 64), c4 (ix2 r k) = Cert.ReferenceIdeal.Read.val_main_v29 (F := Ideal) X P Wq Wk Wv (ix4 (posN t r) (4 : Fin 8) (nodeD r) k))
    (hc5 : ∀ (r : Fin 1088) (k : Fin 64), c5 (ix2 r k) = Cert.ReferenceIdeal.Read.val_main_v29 (F := Ideal) X P Wq Wk Wv (ix4 (posN t r) (5 : Fin 8) (nodeD r) k))
    (hc6 : ∀ (r : Fin 1088) (k : Fin 64), c6 (ix2 r k) = Cert.ReferenceIdeal.Read.val_main_v29 (F := Ideal) X P Wq Wk Wv (ix4 (posN t r) (6 : Fin 8) (nodeD r) k))
    (hc7 : ∀ (r : Fin 1088) (k : Fin 64), c7 (ix2 r k) = Cert.ReferenceIdeal.Read.val_main_v29 (F := Ideal) X P Wq Wk Wv (ix4 (posN t r) (7 : Fin 8) (nodeD r) k))
    (hwo : ∀ (j c : Fin 512), wo (ix2 j c) = Wo (ix2 c j))
    (hbo : ∀ c : Fin 512, bo (ix2 (0 : Fin 1) c) = Bo (ix1 c))
    (r : Fin 1088) (c : Fin 512) :
    Stages.preNorm x1 c0 c1 c2 c3 c4 c5 c6 c7 wo bo (ix2 r c)
      = Cert.ReferenceIdeal.Read.val_main_v37 (F := Ideal) X P Wq Wk Wv Wo Bo (ix4 (posA t r) (posB t r) (nodeD r) c) := by
  rw [preNorm_apply x1 c0 c1 c2 c3 c4 c5 c6 c7 wo bo r
      (fun h k => Cert.ReferenceIdeal.Read.val_main_v29 (F := Ideal) X P Wq Wk Wv (ix4 (posN t r) h (nodeD r) k))
      (hc0 r) (hc1 r) (hc2 r) (hc3 r) (hc4 r) (hc5 r) (hc6 r) (hc7 r) c,
    ref_preNorm_apply X P Wq Wk Wv Wo Bo (posA t r) (posB t r) (nodeD r) c (posN t r) (by
      show 64 * t.val + r.val / 17 = (64 * t.val + r.val / 17) / 256 * 256 + (64 * t.val + r.val / 17) % 256
      omega),
    hbo, hx]
  refine congrArg (· + Bo (ix1 c) + X (ix4 (posA t r) (posB t r) (nodeD r) c)) (Finset.sum_congr rfl fun j _ => ?_)
  rw [hwo]

/-- THE LAST STAGE: the normalised block at (r, c) is the reference's result at the matching index. -/
theorem finish_apply
    (X : (⟨Cert.ReferenceIdeal.S32x256x17x512, .f32⟩ : BufTy).Contents (Elt Ideal))
    (P : (⟨Cert.ReferenceIdeal.S17x17, .f32⟩ : BufTy).Contents (Elt Ideal))
    (Wq Wk Wv Wo : (⟨Cert.ReferenceIdeal.S512x512, .f32⟩ : BufTy).Contents (Elt Ideal))
    (Bo Gm Bt : (⟨Cert.ReferenceIdeal.S512, .f32⟩ : BufTy).Contents (Elt Ideal))
    (t : Fin 128)
    (x1 : FVec Ideal S1088x512 .f32) (c0 c1 c2 c3 c4 c5 c6 c7 : FVec Ideal S1088x64 .f32)
    (wo : Vec Ideal S512x512 .bf16) (bo g b : Vec Ideal S1x512 .f32)
    (hx : ∀ (r : Fin 1088) (c : Fin 512), x1 (ix2 r c) = X (ix4 (posA t r) (posB t r) (nodeD r) c))
    (hc0 : ∀ (r : Fin 1088) (k : Fin 64), c0 (ix2 r k) = Cert.ReferenceIdeal.Read.val_main_v29 (F := Ideal) X P Wq Wk Wv (ix4 (posN t r) (0 : Fin 8) (nodeD r) k))
    (hc1 : ∀ (r : Fin 1088) (k : Fin 64), c1 (ix2 r k) = Cert.ReferenceIdeal.Read.val_main_v29 (F := Ideal) X P Wq Wk Wv (ix4 (posN t r) (1 : Fin 8) (nodeD r) k))
    (hc2 : ∀ (r : Fin 1088) (k : Fin 64), c2 (ix2 r k) = Cert.ReferenceIdeal.Read.val_main_v29 (F := Ideal) X P Wq Wk Wv (ix4 (posN t r) (2 : Fin 8) (nodeD r) k))
    (hc3 : ∀ (r : Fin 1088) (k : Fin 64), c3 (ix2 r k) = Cert.ReferenceIdeal.Read.val_main_v29 (F := Ideal) X P Wq Wk Wv (ix4 (posN t r) (3 : Fin 8) (nodeD r) k))
    (hc4 : ∀ (r : Fin 1088) (k : Fin 64), c4 (ix2 r k) = Cert.ReferenceIdeal.Read.val_main_v29 (F := Ideal) X P Wq Wk Wv (ix4 (posN t r) (4 : Fin 8) (nodeD r) k))
    (hc5 : ∀ (r : Fin 1088) (k : Fin 64), c5 (ix2 r k) = Cert.ReferenceIdeal.Read.val_main_v29 (F := Ideal) X P Wq Wk Wv (ix4 (posN t r) (5 : Fin 8) (nodeD r) k))
    (hc6 : ∀ (r : Fin 1088) (k : Fin 64), c6 (ix2 r k) = Cert.ReferenceIdeal.Read.val_main_v29 (F := Ideal) X P Wq Wk Wv (ix4 (posN t r) (6 : Fin 8) (nodeD r) k))
    (hc7 : ∀ (r : Fin 1088) (k : Fin 64), c7 (ix2 r k) = Cert.ReferenceIdeal.Read.val_main_v29 (F := Ideal) X P Wq Wk Wv (ix4 (posN t r) (7 : Fin 8) (nodeD r) k))
    (hwo : ∀ (j c : Fin 512), wo (ix2 j c) = Wo (ix2 c j))
    (hbo : ∀ c : Fin 512, bo (ix2 (0 : Fin 1) c) = Bo (ix1 c))
    (hg : ∀ c : Fin 512, g (ix2 (0 : Fin 1) c) = Gm (ix1 c))
    (hb : ∀ c : Fin 512, b (ix2 (0 : Fin 1) c) = Bt (ix1 c))
    (r : Fin 1088) (c : Fin 512) :
    Stages.normed (Stages.preNorm x1 c0 c1 c2 c3 c4 c5 c6 c7 wo bo) g b (ix2 r c)
      = Cert.ReferenceIdeal.Read.val_main_v61 (F := Ideal) X P Wq Wk Wv Wo Bo Gm Bt (ix4 (posA t r) (posB t r) (nodeD r) c) := by
  rw [normed_apply, ref_normed_apply]
  have hrow : (fun c' => Stages.preNorm x1 c0 c1 c2 c3 c4 c5 c6 c7 wo bo (ix2 r c'))
      = fun c' => Cert.ReferenceIdeal.Read.val_main_v37 (F := Ideal) X P Wq Wk Wv Wo Bo (ix4 (posA t r) (posB t r) (nodeD r) c') :=
    funext fun c' => preNorm_eq_ref X P Wq Wk Wv Wo Bo t x1 c0 c1 c2 c3 c4 c5 c6 c7 wo bo hx hc0 hc1 hc2 hc3 hc4 hc5 hc6 hc7 hwo hbo r c'
  rw [hrow, funext hg, funext hb]

end Cert.KernelIdeal.Finish

end
-- ==== Proof.Block.lean ====
/-
  The whole block. At grid point t the stored block's entry (r, c) is the reference's result at position
  n = 64·t + r / 17 (batch n / 256, sequence n % 256), node r % 17, channel c: the three projections are the reference's,
  so each of the eight heads' contexts is, and so is the normalised residual sum built from them.
-/
import proofs.«181274_j71270687309843_2_alg».proof.Proof.HeadJoin
import proofs.«181274_j71270687309843_2_alg».proof.Proof.Finish

noncomputable section

namespace Cert.KernelIdeal.Block

open Idealize.ShloMosaic Idealize.ShloMosaic.ValueIdx Cert.KernelIdeal Cert.KernelIdeal.Gen

theorem block_apply
    (X : (⟨Cert.ReferenceIdeal.S32x256x17x512, .f32⟩ : BufTy).Contents (Elt Ideal)) (P : (⟨Cert.ReferenceIdeal.S17x17, .f32⟩ : BufTy).Contents (Elt Ideal))
    (Wq Wk Wv Wo : (⟨Cert.ReferenceIdeal.S512x512, .f32⟩ : BufTy).Contents (Elt Ideal)) (Bo Gm Bt : (⟨Cert.ReferenceIdeal.S512, .f32⟩ : BufTy).Contents (Elt Ideal))
    (t : Fin 128)
    (xb : Vec Ideal S1088x512 .f32) (pb : Vec Ideal S17x17 .f32) (wq wk wv wo : Vec Ideal S512x512 .bf16) (bo g b : Vec Ideal S1x512 .f32)
    (hx : ∀ (r : Fin 1088) (c : Fin 512), xb (ix2 r c) = X (ix4 (⟨(64 * t.val + r.val / 17) / 256, by omega⟩ : Fin 32) (⟨(64 * t.val + r.val / 17) % 256, by omega⟩ : Fin 256) (⟨r.val % 17, by omega⟩ : Fin 17) c))
    (hp : ∀ d e : Fin 17, pb (ix2 d e) = P (ix2 d e))
    (hwq : ∀ j c : Fin 512, wq (ix2 j c) = Wq (ix2 c j)) (hwk : ∀ j c : Fin 512, wk (ix2 j c) = Wk (ix2 c j)) (hwv : ∀ j c : Fin 512, wv (ix2 j c) = Wv (ix2 c j)) (hwo : ∀ j c : Fin 512, wo (ix2 j c) = Wo (ix2 c j))
    (hbo : ∀ c : Fin 512, bo (ix2 (0 : Fin 1) c) = Bo (ix1 c)) (hg : ∀ c : Fin 512, g (ix2 (0 : Fin 1) c) = Gm (ix1 c)) (hb : ∀ c : Fin 512, b (ix2 (0 : Fin 1) c) = Bt (ix1 c))
    (r : Fin 1088) (c : Fin 512) :
    Cert.KernelIdeal.Stages.blockOut xb pb wq wk wv wo bo g b (ix2 r c)
      = Cert.ReferenceIdeal.Read.val_main_v61 (F := Ideal) X P Wq Wk Wv Wo Bo Gm Bt (ix4 (⟨(64 * t.val + r.val / 17) / 256, by omega⟩ : Fin 32) (⟨(64 * t.val + r.val / 17) % 256, by omega⟩ : Fin 256) (⟨r.val % 17, by omega⟩ : Fin 17) c) := by
  have hx1 : HeadJoin.InBlock X t (shapeCast S1088x512 xb shapeCasts_S1088x512_S1088x512) := by
    intro r c
    rw [shapeCast_self]
    exact hx r c
  have hq := HeadJoin.proj_q X Wq t _ wq hx1 hwq
  have hk := HeadJoin.proj_k X Wk t _ wk hx1 hwk
  have hv := HeadJoin.proj_v X Wv t _ wv hx1 hwv
  unfold Stages.blockOut
  exact Finish.finish_apply X P Wq Wk Wv Wo Bo Gm Bt t _ _ _ _ _ _ _ _ _ wo bo g b hx1
    (fun r k => HeadJoin.head_ref X P Wq Wk Wv t (0 : Fin 8) ![0, 0] _ rfl rfl _ _ _ pb hq hk hv hp r k (Finish.posN t r) (Finish.nodeD r) rfl rfl)
    (fun r k => HeadJoin.head_ref X P Wq Wk Wv t (1 : Fin 8) ![0, 64] _ rfl rfl _ _ _ pb hq hk hv hp r k (Finish.posN t r) (Finish.nodeD r) rfl rfl)
    (fun r k => HeadJoin.head_ref X P Wq Wk Wv t (2 : Fin 8) ![0, 128] _ rfl rfl _ _ _ pb hq hk hv hp r k (Finish.posN t r) (Finish.nodeD r) rfl rfl)
    (fun r k => HeadJoin.head_ref X P Wq Wk Wv t (3 : Fin 8) ![0, 192] _ rfl rfl _ _ _ pb hq hk hv hp r k (Finish.posN t r) (Finish.nodeD r) rfl rfl)
    (fun r k => HeadJoin.head_ref X P Wq Wk Wv t (4 : Fin 8) ![0, 256] _ rfl rfl _ _ _ pb hq hk hv hp r k (Finish.posN t r) (Finish.nodeD r) rfl rfl)
    (fun r k => HeadJoin.head_ref X P Wq Wk Wv t (5 : Fin 8) ![0, 320] _ rfl rfl _ _ _ pb hq hk hv hp r k (Finish.posN t r) (Finish.nodeD r) rfl rfl)
    (fun r k => HeadJoin.head_ref X P Wq Wk Wv t (6 : Fin 8) ![0, 384] _ rfl rfl _ _ _ pb hq hk hv hp r k (Finish.posN t r) (Finish.nodeD r) rfl rfl)
    (fun r k => HeadJoin.head_ref X P Wq Wk Wv t (7 : Fin 8) ![0, 448] _ rfl rfl _ _ _ pb hq hk hv hp r k (Finish.posN t r) (Finish.nodeD r) rfl rfl)
    hwo hbo hg hb r c

end Cert.KernelIdeal.Block

end
-- ==== Proof.lean ====
/-
  The kernel is one attention layer with a residual connection and a row normalisation, computed block by block:
  grid point t handles the 64 positions 64·t … 64·t + 63 (1088 = 64 · 17 rows of the input flattened to
  [139264, 512], 17 graph nodes per position). For each block it projects the rows by the three (transposed) weights,
  and for each of the 8 heads (a band of 64 channels) forms the 17 × 17 scores per position — query·key sums times 1/8
  plus the bias table —, takes the softmax of each row (maximum subtracted first) and applies it to the value band;
  the eight contexts side by side are projected by the output weight, the bias and the input are added, and each row
  is centred, divided by the root of its variance plus a small constant, scaled and shifted channel by channel.
  The reference does the same on whole arrays laid out [8192, 8, 17, 64], with the scale computed as 1 / √64.

  On the extended reals the two agree entry by entry with no appeal to finiteness: every sum on the two sides runs
  over the same products in the same order (a format change is the identity, a transposed weight read at (m, c) is
  the weight at (c, m), and re-laying rows or channels only renames indices), the row maximum is the same fold, and
  √64 = 8 so that 1 / √64 is the literal 1/8. Block t's entry (r, c) is therefore the reference's result at position
  n = 64·t + r / 17, node r % 17, channel c; the blocks tile the output, and reshaping it to [32, 256, 17, 512] gives
  the reference's array. The three programs' frames are the generated ones (the reference's from its run), and the
  idealised kernel is the kernel's text read at the ideal instance, so nothing is owed for that conjunct.
-/
import proofs.«181274_j71270687309843_2_alg».proof.Proof.Assemble
import proofs.«181274_j71270687309843_2_alg».proof.Proof.Block

noncomputable section

namespace Cert.Proof

theorem claim : Cert.Claim := Cert.Proof.Assemble.claim_of Cert.KernelIdeal.Block.block_apply

end Cert.Proof

end
